-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32 .f32) (main_arg6 : FVec F S32x32 .f32) (main_arg7 : FVec F S32 .f32) (main_arg8 : FVec F S32x1 .f32) (main_arg9 : FVec F S1 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128x32 .f32) (main_arg5 : FVec F S32 .f32) (main_arg6 : FVec F S32x32 .f32) (main_arg7 : FVec F S32 .f32) (main_arg8 : FVec F S32x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S1x32 : Shape := ⟨2, ![1, 32]⟩
abbrev S1x1 : Shape := ⟨2, ![1, 1]⟩
abbrev S50000x1 : Shape := ⟨2, ![50000, 1]⟩
abbrev S5000x128 : Shape := ⟨2, ![5000, 128]⟩
abbrev S5000x1 : Shape := ⟨2, ![5000, 1]⟩
abbrev S5000x32 : Shape := ⟨2, ![5000, 32]⟩
abbrev S5000 : Shape := ⟨1, ![5000]⟩

abbrev nBuf : Space → Nat
  | .hbm => 74
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S50000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S1x600000, .i32⟩
  | .hbm, ⟨15, _⟩ => ⟨S600000, .i32⟩
  | .hbm, ⟨16, _⟩ => ⟨S650000, .i32⟩
  | .hbm, ⟨17, _⟩ => ⟨S_, .f32⟩
  | .hbm, ⟨18, _⟩ => ⟨S650000, .f32⟩
  | .hbm, ⟨19, _⟩ => ⟨S_, .f32⟩
  | .hbm, ⟨20, _⟩ => ⟨S50000, .f32⟩
  | .hbm, ⟨21, _⟩ => ⟨S650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S650000, .i32⟩
  | .hbm, ⟨33, _⟩ => ⟨S650000, .i1⟩
  | .hbm, ⟨34, _⟩ => ⟨S_, .i32⟩
  | .hbm, ⟨35, _⟩ => ⟨S650000, .i32⟩
  | .hbm, ⟨36, _⟩ => ⟨S650000, .i32⟩
  | .hbm, ⟨37, _⟩ => ⟨S650000, .i32⟩
  | .hbm, ⟨38, _⟩ => ⟨S650000x1, .i32⟩
  | .hbm, ⟨39, _⟩ => ⟨S650000, .f32⟩
  | .hbm, ⟨40, _⟩ => ⟨S_, .i32⟩
  | .hbm, ⟨41, _⟩ => ⟨S650000, .i32⟩
  | .hbm, ⟨42, _⟩ => ⟨S650000, .i1⟩
  | .hbm, ⟨43, _⟩ => ⟨S_, .i32⟩
  | .hbm, ⟨44, _⟩ => ⟨S650000, .i32⟩
  | .hbm, ⟨45, _⟩ => ⟨S650000, .i32⟩
  | .hbm, ⟨46, _⟩ => ⟨S650000, .i32⟩
  | .hbm, ⟨47, _⟩ => ⟨S650000x1, .i32⟩
  | .hbm, ⟨48, _⟩ => ⟨S650000, .f32⟩
  | .hbm, ⟨49, _⟩ => ⟨S650000, .f32⟩
  | .hbm, ⟨50, _⟩ => ⟨S50000x128, .bf16⟩
  | .hbm, ⟨51, _⟩ => ⟨S_, .i32⟩
  | .hbm, ⟨52, _⟩ => ⟨S650000, .i32⟩
  | .hbm, ⟨53, _⟩ => ⟨S650000, .i1⟩
  | .hbm, ⟨54, _⟩ => ⟨S_, .i32⟩
  | .hbm, ⟨55, _⟩ => ⟨S650000, .i32⟩
  | .hbm, ⟨56, _⟩ => ⟨S650000, .i32⟩
  | .hbm, ⟨57, _⟩ => ⟨S650000, .i32⟩
  | .hbm, ⟨58, _⟩ => ⟨S650000x1, .i32⟩
  | .hbm, ⟨59, _⟩ => ⟨S650000x128, .bf16⟩
  | .hbm, ⟨60, _⟩ => ⟨S650000x128, .f32⟩
  | .hbm, ⟨61, _⟩ => ⟨S650000x1, .f32⟩
  | .hbm, ⟨62, _⟩ => ⟨S650000x128, .f32⟩
  | .hbm, ⟨63, _⟩ => ⟨S650000x128, .f32⟩
  | .hbm, ⟨64, _⟩ => ⟨S_, .f32⟩
  | .hbm, ⟨65, _⟩ => ⟨S50000x128, .f32⟩
  | .hbm, ⟨66, _⟩ => ⟨S650000x1, .i32⟩
  | .hbm, ⟨67, _⟩ => ⟨S50000x128, .f32⟩
  | .hbm, ⟨68, _⟩ => ⟨S1x128, .f32⟩
  | .hbm, ⟨69, _⟩ => ⟨S1x32, .f32⟩
  | .hbm, ⟨70, _⟩ => ⟨S1x32, .f32⟩
  | .hbm, ⟨71, _⟩ => ⟨S1x1, .f32⟩
  | .hbm, ⟨72, _⟩ => ⟨S1x32, .f32⟩
  | .hbm, ⟨73, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S1x32, .f32⟩
  | .local _ .vmem, ⟨11, _⟩ => ⟨S1x1, .f32⟩
  | .local _ .vmem, ⟨12, _⟩ => ⟨S5000x1, .f32⟩
  | .local _ .vmem, ⟨13, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bitsLt_bf16_f32 : FTy.bits .bf16 < FTy.bits .f32
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S32_S1x32 : S32.ShapeCasts S1x32
  shapeCasts_S1_S1x1 : S1.ShapeCasts S1x1
  shapeCasts_S32x1_S1x32 : S32x1.ShapeCasts S1x32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  reduces_S5000x32_S5000 : S5000x32.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x1.size a ≤ S50000x1.size a
  hwx0_10 : ∀ i : grid0.Coords, EltTy.bits .f32 = 32 ∨ (Rect.block (s := S50000x1) S5000x1.size (cc0_transform_10 i) (hinb0_10 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_v44) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v49) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v50) S5000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x32 : Shape := ⟨2, ![50000, 32]⟩
abbrev S1x32 : Shape := ⟨2, ![1, 32]⟩
abbrev S50000x1 : Shape := ⟨2, ![50000, 1]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S50000x128, .f32⟩
  | .hbm, ⟨11, _⟩ => ⟨S50000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S1x600000, .i32⟩
  | .hbm, ⟨16, _⟩ => ⟨S600000, .i32⟩
  | .hbm, ⟨17, _⟩ => ⟨S650000, .i32⟩
  | .hbm, ⟨18, _⟩ => ⟨S_, .f32⟩
  | .hbm, ⟨19, _⟩ => ⟨S650000, .f32⟩
  | .hbm, ⟨20, _⟩ => ⟨S_, .f32⟩
  | .hbm, ⟨21, _⟩ => ⟨S50000, .f32⟩
  | .hbm, ⟨22, _⟩ => ⟨S650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S_, .i32⟩
  | .hbm, ⟨42, _⟩ => ⟨S650000, .i32⟩
  | .hbm, ⟨43, _⟩ => ⟨S650000, .i1⟩
  | .hbm, ⟨44, _⟩ => ⟨S_, .i32⟩
  | .hbm, ⟨45, _⟩ => ⟨S650000, .i32⟩
  | .hbm, ⟨46, _⟩ => ⟨S650000, .i32⟩
  | .hbm, ⟨47, _⟩ => ⟨S650000, .i32⟩
  | .hbm, ⟨48, _⟩ => ⟨S650000x1, .i32⟩
  | .hbm, ⟨49, _⟩ => ⟨S650000, .f32⟩
  | .hbm, ⟨50, _⟩ => ⟨S650000, .f32⟩
  | .hbm, ⟨51, _⟩ => ⟨S_, .i32⟩
  | .hbm, ⟨52, _⟩ => ⟨S650000, .i32⟩
  | .hbm, ⟨53, _⟩ => ⟨S650000, .i1⟩
  | .hbm, ⟨54, _⟩ => ⟨S_, .i32⟩
  | .hbm, ⟨55, _⟩ => ⟨S650000, .i32⟩
  | .hbm, ⟨56, _⟩ => ⟨S650000, .i32⟩
  | .hbm, ⟨57, _⟩ => ⟨S650000, .i32⟩
  | .hbm, ⟨58, _⟩ => ⟨S650000x1, .i32⟩
  | .hbm, ⟨59, _⟩ => ⟨S650000x128, .f32⟩
  | .hbm, ⟨60, _⟩ => ⟨S650000x1, .f32⟩
  | .hbm, ⟨61, _⟩ => ⟨S650000x128, .f32⟩
  | .hbm, ⟨62, _⟩ => ⟨S650000x128, .f32⟩
  | .hbm, ⟨63, _⟩ => ⟨S_, .f32⟩
  | .hbm, ⟨64, _⟩ => ⟨S50000x128, .f32⟩
  | .hbm, ⟨65, _⟩ => ⟨S650000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x32, .f32⟩
  | .hbm, ⟨75, _⟩ => ⟨S1x32, .f32⟩
  | .hbm, ⟨76, _⟩ => ⟨S50000x32, .f32⟩
  | .hbm, ⟨77, _⟩ => ⟨S50000x32, .f32⟩
  | .hbm, ⟨78, _⟩ => ⟨S_, .f32⟩
  | .hbm, ⟨79, _⟩ => ⟨S50000x32, .f32⟩
  | .hbm, ⟨80, _⟩ => ⟨S50000x32, .f32⟩
  | .hbm, ⟨81, _⟩ => ⟨S50000x32, .f32⟩
  | .hbm, ⟨82, _⟩ => ⟨S1x32, .f32⟩
  | .hbm, ⟨83, _⟩ => ⟨S50000x32, .f32⟩
  | .hbm, ⟨84, _⟩ => ⟨S50000x32, .f32⟩
  | .hbm, ⟨85, _⟩ => ⟨S_, .f32⟩
  | .hbm, ⟨86, _⟩ => ⟨S50000x32, .f32⟩
  | .hbm, ⟨87, _⟩ => ⟨S50000x32, .f32⟩
  | .hbm, ⟨88, _⟩ => ⟨S50000x1, .f32⟩
  | .hbm, ⟨89, _⟩ => ⟨S1x1, .f32⟩
  | .hbm, ⟨90, _⟩ => ⟨S50000x1, .f32⟩
  | .hbm, ⟨91, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_cst : Ref sig .tc := ⟨.hbm, 78, rfl⟩
abbrev main_call2_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call3_cst : Ref sig .tc := ⟨.hbm, 85, rfl⟩
abbrev main_call3_v0 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x32_S50000x32_1_0_0_1_n_n_wf : DotDims.WF S50000x128 S128x32 S50000x32 [1] [0] [0] [1] [] []
  dot_S50000x32_S32x32_S50000x32_1_0_0_1_n_n_wf : DotDims.WF S50000x32 S32x32 S50000x32 [1] [0] [0] [1] [] []
  dot_S50000x32_S32x1_S50000x1_1_0_0_1_n_n_wf : DotDims.WF S50000x32 S32x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.Spec.lean ====
/-
  What one node's output is, as a function of that node's row of aggregated features.

  After the graph convolution every node is treated independently: with p the node's convolved row (before the
  bias), x its own feature row and b the bias,

      h0 = relu (p + b) + x              (the convolution's bias and rectifier, then the residual)
      h1 = relu (h0 · W1 + b1)           (first dense layer)
      h2 = relu (h1 · W2 + b2)           (second dense layer)
      out = h2 · w3 + b3                 (projection to one number)

  where relu v = max v 0 and each product is the plain sum over the contracted coordinate. The zero of the
  rectifier is kept as the float pattern both programs print, so it is never evaluated.
-/
import Idealize.ShloMosaic.PureOps.Ideal

noncomputable section

open scoped BigOperators

namespace Cert.Spec

open Idealize.ShloMosaic

/-- The rectifier: the maximum with the zero pattern. -/
def relu (v : EReal) : EReal := max v (Ideal.ofBits .f32 0x00000000#32)

/-- The convolved row with its bias, rectified, plus the node's own features. -/
def h0 (p b x : Fin 128 → EReal) (j : Fin 128) : EReal := relu (p j + b j) + x j

/-- One dense layer on a row: the row times the weight matrix, plus the bias, rectified. -/
def layer {K J : ℕ} (h : Fin K → EReal) (w : Fin K → Fin J → EReal) (b : Fin J → EReal) (j : Fin J) : EReal :=
  relu ((∑ k, h k * w k j) + b j)

/-- The node's output from its convolved row `p`. -/
def rowOut (p b x : Fin 128 → EReal) (w1 : Fin 128 → Fin 32 → EReal) (b1 : Fin 32 → EReal)
    (w2 : Fin 32 → Fin 32 → EReal) (b2 : Fin 32 → EReal) (w3 : Fin 32 → EReal) (b3 : EReal) : EReal :=
  (∑ k, layer (layer (h0 p b x) w1 b1) w2 b2 k * w3 k) + b3

end Cert.Spec

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.KernelSide.lean ====
/-
  The kernel body's block, read at one row.

  On a block of 5000 nodes the body multiplies the block of aggregated features by the convolution's weight matrix,
  adds the bias row, rectifies, adds the nodes' own features, runs the two dense layers, and projects each row to
  one number by a lane sum against the last weight row. Read at row r all of this is the per-node function of the
  specification, with the convolved row p j = ∑_d agg (r, d) · W (d, j): each matrix product into a zero tile is the
  plain sum over the contracted coordinate, a bias row repeated over the rows reads the bias at the column, and the
  changes of float format are the identity on the extended reals.
-/
import proofs.«101228_j33243046871254_2_alg».proof.Proof.KValue
import proofs.«101228_j33243046871254_2_alg».proof.Proof.Spec
import proofs.«101228_j33243046871254_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelSide

open Idealize.ShloMosaic Idealize.ShloMosaic.ValueIdx Cert.KernelIdeal Cert.KernelIdeal.Gen

/-! ## The three products are plain ones -/

theorem dotA_plain : dot_S5000x128_S128x128_S5000x128_1_0_0_1_n_n = DotDims.plain 5000 128 128 := rfl
theorem dotB_plain : dot_S5000x128_S128x32_S5000x32_1_0_0_1_n_n = DotDims.plain 5000 128 32 := rfl
theorem dotC_plain : dot_S5000x32_S32x32_S5000x32_1_0_0_1_n_n = DotDims.plain 5000 32 32 := rfl

/-! ## The body's stages as vector operations -/

/-- The convolution's dense part on a block: aggregated features times the weight matrix, plus the bias row,
    rectified, plus the nodes' own features. -/
def stage0 (P0 : Vec Ideal S5000x128 .f32) (P1 : Vec Ideal S128x128 .f32) (P2 : Vec Ideal S1x128 .f32)
    (P3 : Vec Ideal S5000x128 .f32) : FVec Ideal S5000x128 .f32 :=
  addf (maximumf (addf (matmul dot_S5000x128_S128x128_S5000x128_1_0_0_1_n_n none
      (truncf .bf16 (shapeCast S5000x128 P0 shapeCasts_S5000x128_S5000x128) bitsLt_bf16_f32) (truncf .bf16 P1 bitsLt_bf16_f32)
      (constant S5000x128 .f32 0x00000000#32))
    (broadcastTo S5000x128 (shapeCast S1x128 P2 shapeCasts_S1x128_S1x128) broadcasts_S1x128_S5000x128))
    (broadcast S5000x128 (Scalar.ofBits .f32 0x00000000#32))) P3

/-- The first dense layer on a block. -/
def stage1 (h : FVec Ideal S5000x128 .f32) (P4 : Vec Ideal S128x32 .f32) (P5 : Vec Ideal S1x32 .f32) : FVec Ideal S5000x32 .f32 :=
  maximumf (addf (matmul dot_S5000x128_S128x32_S5000x32_1_0_0_1_n_n none
      (truncf .bf16 h bitsLt_bf16_f32) (truncf .bf16 P4 bitsLt_bf16_f32) (constant S5000x32 .f32 0x00000000#32))
    (broadcastTo S5000x32 (shapeCast S1x32 P5 shapeCasts_S1x32_S1x32) broadcasts_S1x32_S5000x32))
    (broadcast S5000x32 (Scalar.ofBits .f32 0x00000000#32))

/-- The second dense layer on a block. -/
def stage2 (h : FVec Ideal S5000x32 .f32) (P6 : Vec Ideal S32x32 .f32) (P7 : Vec Ideal S1x32 .f32) : FVec Ideal S5000x32 .f32 :=
  maximumf (addf (matmul dot_S5000x32_S32x32_S5000x32_1_0_0_1_n_n none
      (truncf .bf16 h bitsLt_bf16_f32) (truncf .bf16 P6 bitsLt_bf16_f32) (constant S5000x32 .f32 0x00000000#32))
    (broadcastTo S5000x32 (shapeCast S1x32 P7 shapeCasts_S1x32_S1x32) broadcasts_S1x32_S5000x32))
    (broadcast S5000x32 (Scalar.ofBits .f32 0x00000000#32))

/-- The body's hidden block is the three stages composed. -/
theorem pay2_eq (P0 : Vec Ideal S5000x128 .f32) (P1 : Vec Ideal S128x128 .f32) (P2 : Vec Ideal S1x128 .f32)
    (P3 : Vec Ideal S5000x128 .f32) (P4 : Vec Ideal S128x32 .f32) (P5 : Vec Ideal S1x32 .f32) (P6 : Vec Ideal S32x32 .f32)
    (P7 : Vec Ideal S1x32 .f32) :
    k0_pay2 P0 P1 P2 P3 P4 P5 P6 P7 = stage2 (stage1 (stage0 P0 P1 P2 P3) P4 P5) P6 P7 := rfl

/-! ## Each stage at a row -/

theorem stage0_apply (P0 : Vec Ideal S5000x128 .f32) (P1 : Vec Ideal S128x128 .f32) (P2 : Vec Ideal S1x128 .f32)
    (P3 : Vec Ideal S5000x128 .f32) (r : Fin 5000) (j : Fin 128) :
    stage0 P0 P1 P2 P3 (ix2 r j)
      = Spec.h0 (fun j => ∑ d : Fin 128, P0 (ix2 r d) * P1 (ix2 d j)) (fun j => P2 (ix2 (0 : Fin 1) j)) (fun j => P3 (ix2 r j)) j := by
  unfold stage0 Spec.h0 Spec.relu
  rw [shapeCast_self, shapeCast_self, dotA_plain]
  refine (addf_apply _ _ _).trans ?_
  refine congrArg (· + P3 (ix2 r j)) ?_
  refine (maximumf_apply _ _ _).trans ?_
  refine congrArg (max · _) ?_
  refine (addf_apply _ _ _).trans ?_
  refine congrArg₂ (· + ·) ?_ ?_
  · exact Cert.LibPlainDot.matmul_plain_zero_apply none _ _ r j
  · exact ValueIdx.broadcastTo_1b_ab_apply P2 _ r j

theorem stage1_apply (h : FVec Ideal S5000x128 .f32) (P4 : Vec Ideal S128x32 .f32) (P5 : Vec Ideal S1x32 .f32)
    (r : Fin 5000) (j : Fin 32) :
    stage1 h P4 P5 (ix2 r j)
      = Spec.layer (fun k : Fin 128 => h (ix2 r k)) (fun k j => P4 (ix2 k j)) (fun j => P5 (ix2 (0 : Fin 1) j)) j := by
  unfold stage1 Spec.layer Spec.relu
  rw [shapeCast_self, dotB_plain]
  refine (maximumf_apply _ _ _).trans ?_
  refine congrArg (max · _) ?_
  refine (addf_apply _ _ _).trans ?_
  refine congrArg₂ (· + ·) ?_ ?_
  · exact Cert.LibPlainDot.matmul_plain_zero_apply none _ _ r j
  · exact ValueIdx.broadcastTo_1b_ab_apply P5 _ r j

theorem stage2_apply (h : FVec Ideal S5000x32 .f32) (P6 : Vec Ideal S32x32 .f32) (P7 : Vec Ideal S1x32 .f32)
    (r : Fin 5000) (j : Fin 32) :
    stage2 h P6 P7 (ix2 r j)
      = Spec.layer (fun k : Fin 32 => h (ix2 r k)) (fun k j => P6 (ix2 k j)) (fun j => P7 (ix2 (0 : Fin 1) j)) j := by
  unfold stage2 Spec.layer Spec.relu
  rw [shapeCast_self, dotC_plain]
  refine (maximumf_apply _ _ _).trans ?_
  refine congrArg (max · _) ?_
  refine (addf_apply _ _ _).trans ?_
  refine congrArg₂ (· + ·) ?_ ?_
  · exact Cert.LibPlainDot.matmul_plain_zero_apply none _ _ r j
  · exact ValueIdx.broadcastTo_1b_ab_apply P7 _ r j

/-! ## The stored block at a row -/

/-- Row r of the block the body stores: the per-node output of the specification, the convolved row being the row
    of aggregated features times the weight matrix. -/
theorem E10_apply (P0 : Vec Ideal S5000x128 .f32) (P1 : Vec Ideal S128x128 .f32) (P2 : Vec Ideal S1x128 .f32)
    (P3 : Vec Ideal S5000x128 .f32) (P4 : Vec Ideal S128x32 .f32) (P5 : Vec Ideal S1x32 .f32) (P6 : Vec Ideal S32x32 .f32)
    (P7 : Vec Ideal S1x32 .f32) (P8 : Vec Ideal S1x32 .f32) (P9 : Vec Ideal S1x1 .f32) (r : Fin 5000) :
    Cert.KernelIdeal.ValueP.E10 P0 P1 P2 P3 P4 P5 P6 P7 P8 P9 (ix2 r (0 : Fin 1))
      = Spec.rowOut (fun j => ∑ d : Fin 128, P0 (ix2 r d) * P1 (ix2 d j)) (fun j => P2 (ix2 (0 : Fin 1) j)) (fun j => P3 (ix2 r j))
          (fun k j => P4 (ix2 k j)) (fun j => P5 (ix2 (0 : Fin 1) j)) (fun k j => P6 (ix2 k j)) (fun j => P7 (ix2 (0 : Fin 1) j))
          (fun k => P8 (ix2 (0 : Fin 1) k)) (P9 (ix2 (0 : Fin 1) (0 : Fin 1))) := by
  have hrow : Cert.KernelIdeal.ValueP.ix10_0 (ix2 r (0 : Fin 1)) = ix1 r := by
    funext a; match a with | ⟨0, _⟩ => rfl
  have hone : Cert.KernelIdeal.ValueP.ix10_1 (ix2 r (0 : Fin 1)) = ix2 (0 : Fin 1) (0 : Fin 1) := by
    funext a; match a with | ⟨0, _⟩ => rfl | ⟨1, _⟩ => rfl
  show (multiReduction .add [1] S5000 (mulf (k0_pay2 P0 P1 P2 P3 P4 P5 P6 P7)
      (broadcastTo S5000x32 (shapeCast S1x32 P8 shapeCasts_S1x32_S1x32) broadcasts_S1x32_S5000x32)) 0x00000000#32
      reduces_S5000x32_S5000 (.inl rfl) rfl) (Cert.KernelIdeal.ValueP.ix10_0 (ix2 r (0 : Fin 1)))
    + P9 (Cert.KernelIdeal.ValueP.ix10_1 (ix2 r (0 : Fin 1))) = _
  rw [hrow, hone]
  unfold Spec.rowOut
  refine congrArg (· + P9 (ix2 (0 : Fin 1) (0 : Fin 1))) ?_
  refine (Ideal.multiReduction_add_single _ _ reduces_S5000x32_S5000 (.inl rfl) rfl (ix1 r)).trans ?_
  refine Finset.sum_congr rfl fun k _ => ?_
  have hl : reduces_S5000x32_S5000.lift (ix1 r) k = ix2 r k := by
    funext a; apply Fin.ext; match a with | ⟨0, _⟩ => rfl | ⟨1, _⟩ => rfl
  rw [hl]
  refine (mulf_apply _ _ _).trans ?_
  refine congrArg₂ (· * ·) ?_ ?_
  · rw [pay2_eq]
    refine (stage2_apply _ P6 P7 r k).trans ?_
    refine congrArg (fun h => Spec.layer h _ _ k) (funext fun k' => ?_)
    refine (stage1_apply _ P4 P5 r k').trans ?_
    refine congrArg (fun h => Spec.layer h _ _ k') (funext fun i => ?_)
    exact stage0_apply P0 P1 P2 P3 r i
  · rw [shapeCast_self]
    exact ValueIdx.broadcastTo_1b_ab_apply P8 _ r k

end Cert.KernelSide

end
-- ==== Proof.BlocksRow.lean ====
/-
  One node's output from the arrays the region finds, and one row of the block the kernel body stores.

  The per-node output is the specification's function of row n of the aggregated features (multiplied by the
  convolution's weight matrix), row n of the node features, and the weight and bias operands. The body's stored
  block, read at row r, is that function of row r of the staged blocks: the body loads every staged block whole, so
  a load reads the block itself.
-/

import proofs.«101228_j33243046871254_2_alg».proof.Proof.KValue
import proofs.«101228_j33243046871254_2_alg».proof.Proof.KernelSide
import proofs.«101228_j33243046871254_2_alg».proof.Proof.Spec
import Idealize.ShloMosaic.Lib.Pipeline.Value
import Idealize.ShloMosaic.Lib.ValueIdx
import Idealize.ShloMosaic.Lib.Tactic

noncomputable section

open scoped BigOperators

namespace Cert.BlocksRow

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## The output at a node, from the arrays the region finds -/

/-- The per-node output from row n of the aggregated features `agg` and of the node features `x`. -/
def nodeOut (agg x : S50000x128.Idx → EReal) (W : S128x128.Idx → EReal) (b : S1x128.Idx → EReal) (w1 : S128x32.Idx → EReal)
    (b1 : S1x32.Idx → EReal) (w2 : S32x32.Idx → EReal) (b2 : S1x32.Idx → EReal) (w3 : S1x32.Idx → EReal) (b3 : S1x1.Idx → EReal)
    (n : Fin 50000) : EReal :=
  Spec.rowOut (fun j => ∑ d : Fin 128, agg (ix2 n d) * W (ix2 d j)) (fun j => b (ix2 (0 : Fin 1) j)) (fun j => x (ix2 n j))
    (fun k j => w1 (ix2 k j)) (fun j => b1 (ix2 (0 : Fin 1) j)) (fun k j => w2 (ix2 k j)) (fun j => b2 (ix2 (0 : Fin 1) j))
    (fun k => w3 (ix2 (0 : Fin 1) k)) (b3 (ix2 (0 : Fin 1) (0 : Fin 1)))

/-- The whole one-column output array. -/
def outArr (agg x : S50000x128.Idx → EReal) (W : S128x128.Idx → EReal) (b : S1x128.Idx → EReal) (w1 : S128x32.Idx → EReal)
    (b1 : S1x32.Idx → EReal) (w2 : S32x32.Idx → EReal) (b2 : S1x32.Idx → EReal) (w3 : S1x32.Idx → EReal) (b3 : S1x1.Idx → EReal) :
    S50000x1.Idx → EReal :=
  fun i => nodeOut agg x W b w1 b1 w2 b2 w3 b3 ⟨(i 0).val, idx2_lt0 i⟩

/-! ## The body's stored block at a row, over arbitrary staged blocks -/

/-- Row r of what the body leaves in the output's staging buffer. -/
theorem out_row (x0 : Vec Ideal S5000x128 .f32) (x1 : Vec Ideal S5000x128 .f32) (x2 : Vec Ideal S128x128 .f32)
    (x3 : Vec Ideal S1x128 .f32) (x4 : Vec Ideal S128x32 .f32) (x5 : Vec Ideal S1x32 .f32) (x6 : Vec Ideal S32x32 .f32)
    (x7 : Vec Ideal S1x32 .f32) (x8 : Vec Ideal S1x32 .f32) (x9 : Vec Ideal S1x1 .f32) (r : Fin 5000) :
    out0_10 x0 x1 x2 x3 x4 x5 x6 x7 x8 x9 (ix2 r (0 : Fin 1))
      = Spec.rowOut (fun j => ∑ d : Fin 128, x0 (ix2 r d) * x2 (ix2 d j)) (fun j => x3 (ix2 (0 : Fin 1) j)) (fun j => x1 (ix2 r j))
          (fun k j => x4 (ix2 k j)) (fun j => x5 (ix2 (0 : Fin 1) j)) (fun k j => x6 (ix2 k j)) (fun j => x7 (ix2 (0 : Fin 1) j))
          (fun k => x8 (ix2 (0 : Fin 1) k)) (x9 (ix2 (0 : Fin 1) (0 : Fin 1))) := by
  unfold out0_10
  rw [Cert.KernelIdeal.ValueP.canon10_eq]
  simp only [View.ld_unit_zero (S := S5000x128) hz, View.ld_unit_zero (S := S128x128) hz, View.ld_unit_zero (S := S1x128) hz,
    View.ld_unit_zero (S := S128x32) hz, View.ld_unit_zero (S := S1x32) hz, View.ld_unit_zero (S := S32x32) hz,
    View.ld_unit_zero (S := S1x1) hz]
  exact Cert.KernelSide.E10_apply x0 x2 x3 x1 x4 x5 x6 x7 x8 x9 r

end Cert.BlocksRow

end
-- ==== Proof.BlocksRead.lean ====
/-
  The windows' blocks.

  The grid has ten points. At point t the two row-blocked inputs (the aggregated features and the node features) stage
  rows 5000·t … 5000·t + 4999 of their arrays, every weight and bias operand is staged whole, and the output's block is
  rows 5000·t … 5000·t + 4999 of the one-column result. A block's element at coordinate y is the array's element at
  block index × block extent + y on each axis.
-/

import proofs.«101228_j33243046871254_2_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal

noncomputable section

open scoped BigOperators

namespace Cert.BlocksRead

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The windows' blocks -/

/-- The printed index maps, decided over the ten grid points: the two row-blocked inputs and the output move with
    the point on the row axis; every other operand is whole. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = t.val
    ∧ win0_10.index t (1 : Fin 2) = 0 :=
  (by decide +kernel : ∀ t : Fin grid0.N, _)

/-- Window 0's block, of any family of arrays, at a point: the array read at block index × block extent + the coordinate
    inside the block. -/
theorem read0 (c : Dev nD) (A : (b : Ref sig .tc) → Buf (Elt Ideal) ((c : Thread nD τ).loc b)) (t : Fin cfg0.N)
    (y : S5000x128.Idx) (i : S50000x128.Idx)
    (h0 : (i 0).val = win0_0.index t (0 : Fin 2) * 5000 + (y 0).val)
    (h1 : (i 1).val = win0_0.index t (1 : Fin 2) * 128 + (y 1).val) :
    (((cfg0.win 0).blk t).view.read (Elt Ideal) (A (Pipeline.arrRef spec0 0)) : Vec Ideal S5000x128 .f32) y
      = (A main_v44 : S50000x128.Idx → EReal) i := by
  rw [View.read_apply]
  show A main_v44 _ = A main_v44 _
  refine congrArg (A main_v44) (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- Window 0's block at a point, of the array the region finds. -/
theorem iblk0_apply (c : Dev nD) (t : Fin cfg0.N) (y : S5000x128.Idx) (i : S50000x128.Idx)
    (h0 : (i 0).val = win0_0.index t (0 : Fin 2) * 5000 + (y 0).val)
    (h1 : (i 1).val = win0_0.index t (1 : Fin 2) * 128 + (y 1).val) :
    (iblk m c 0 t : Vec Ideal S5000x128 .f32) y = (V m c main_v44 : S50000x128.Idx → EReal) i := by
  unfold iblk
  exact read0 c (V m c) t y i h0 h1

/-- Window 1's block, of any family of arrays, at a point: the array read at block index × block extent + the coordinate
    inside the block. -/
theorem read1 (c : Dev nD) (A : (b : Ref sig .tc) → Buf (Elt Ideal) ((c : Thread nD τ).loc b)) (t : Fin cfg0.N)
    (y : S5000x128.Idx) (i : S50000x128.Idx)
    (h0 : (i 0).val = win0_1.index t (0 : Fin 2) * 5000 + (y 0).val)
    (h1 : (i 1).val = win0_1.index t (1 : Fin 2) * 128 + (y 1).val) :
    (((cfg0.win 1).blk t).view.read (Elt Ideal) (A (Pipeline.arrRef spec0 1)) : Vec Ideal S5000x128 .f32) y
      = (A main_arg0 : S50000x128.Idx → EReal) i := by
  rw [View.read_apply]
  show A main_arg0 _ = A main_arg0 _
  refine congrArg (A main_arg0) (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- Window 1's block at a point, of the array the region finds. -/
theorem iblk1_apply (c : Dev nD) (t : Fin cfg0.N) (y : S5000x128.Idx) (i : S50000x128.Idx)
    (h0 : (i 0).val = win0_1.index t (0 : Fin 2) * 5000 + (y 0).val)
    (h1 : (i 1).val = win0_1.index t (1 : Fin 2) * 128 + (y 1).val) :
    (iblk m c 1 t : Vec Ideal S5000x128 .f32) y = (V m c main_arg0 : S50000x128.Idx → EReal) i := by
  unfold iblk
  exact read1 c (V m c) t y i h0 h1

/-- Window 2's block, of any family of arrays, at a point: the array read at block index × block extent + the coordinate
    inside the block. -/
theorem read2 (c : Dev nD) (A : (b : Ref sig .tc) → Buf (Elt Ideal) ((c : Thread nD τ).loc b)) (t : Fin cfg0.N)
    (y : S128x128.Idx) (i : S128x128.Idx)
    (h0 : (i 0).val = win0_2.index t (0 : Fin 2) * 128 + (y 0).val)
    (h1 : (i 1).val = win0_2.index t (1 : Fin 2) * 128 + (y 1).val) :
    (((cfg0.win 2).blk t).view.read (Elt Ideal) (A (Pipeline.arrRef spec0 2)) : Vec Ideal S128x128 .f32) y
      = (A main_arg2 : S128x128.Idx → EReal) i := by
  rw [View.read_apply]
  show A main_arg2 _ = A main_arg2 _
  refine congrArg (A main_arg2) (funext fun a => Fin.ext ?_)
  match a with
  | ⟨0, _⟩ => show win0_2.index t (0 : Fin 2) * 128 + 1 * (y 0).val = (i 0).val; omega
  | ⟨1, _⟩ => show win0_2.index t (1 : Fin 2) * 128 + 1 * (y 1).val = (i 1).val; omega

/-- Window 2's block at a point, of the array the region finds. -/
theorem iblk2_apply (c : Dev nD) (t : Fin cfg0.N) (y : S128x128.Idx) (i : S128x128.Idx)
    (h0 : (i 0).val = win0_2.index t (0 : Fin 2) * 128 + (y 0).val)
    (h1 : (i 1).val = win0_2.index t (1 : Fin 2) * 128 + (y 1).val) :
    (iblk m c 2 t : Vec Ideal S128x128 .f32) y = (V m c main_arg2 : S128x128.Idx → EReal) i := by
  unfold iblk
  exact read2 c (V m c) t y i h0 h1

/-- Window 3's block, of any family of arrays, at a point: the array read at block index × block extent + the coordinate
    inside the block. -/
theorem read3 (c : Dev nD) (A : (b : Ref sig .tc) → Buf (Elt Ideal) ((c : Thread nD τ).loc b)) (t : Fin cfg0.N)
    (y : S1x128.Idx) (i : S1x128.Idx)
    (h0 : (i 0).val = win0_3.index t (0 : Fin 2) * 1 + (y 0).val)
    (h1 : (i 1).val = win0_3.index t (1 : Fin 2) * 128 + (y 1).val) :
    (((cfg0.win 3).blk t).view.read (Elt Ideal) (A (Pipeline.arrRef spec0 3)) : Vec Ideal S1x128 .f32) y
      = (A main_v45 : S1x128.Idx → EReal) i := by
  rw [View.read_apply]
  show A main_v45 _ = A main_v45 _
  refine congrArg (A main_v45) (funext fun a => Fin.ext ?_)
  match a with
  | ⟨0, _⟩ => show win0_3.index t (0 : Fin 2) * 1 + 1 * (y 0).val = (i 0).val; omega
  | ⟨1, _⟩ => show win0_3.index t (1 : Fin 2) * 128 + 1 * (y 1).val = (i 1).val; omega

/-- Window 3's block at a point, of the array the region finds. -/
theorem iblk3_apply (c : Dev nD) (t : Fin cfg0.N) (y : S1x128.Idx) (i : S1x128.Idx)
    (h0 : (i 0).val = win0_3.index t (0 : Fin 2) * 1 + (y 0).val)
    (h1 : (i 1).val = win0_3.index t (1 : Fin 2) * 128 + (y 1).val) :
    (iblk m c 3 t : Vec Ideal S1x128 .f32) y = (V m c main_v45 : S1x128.Idx → EReal) i := by
  unfold iblk
  exact read3 c (V m c) t y i h0 h1

/-- Window 4's block, of any family of arrays, at a point: the array read at block index × block extent + the coordinate
    inside the block. -/
theorem read4 (c : Dev nD) (A : (b : Ref sig .tc) → Buf (Elt Ideal) ((c : Thread nD τ).loc b)) (t : Fin cfg0.N)
    (y : S128x32.Idx) (i : S128x32.Idx)
    (h0 : (i 0).val = win0_4.index t (0 : Fin 2) * 128 + (y 0).val)
    (h1 : (i 1).val = win0_4.index t (1 : Fin 2) * 32 + (y 1).val) :
    (((cfg0.win 4).blk t).view.read (Elt Ideal) (A (Pipeline.arrRef spec0 4)) : Vec Ideal S128x32 .f32) y
      = (A main_arg4 : S128x32.Idx → EReal) i := by
  rw [View.read_apply]
  show A main_arg4 _ = A main_arg4 _
  refine congrArg (A main_arg4) (funext fun a => Fin.ext ?_)
  match a with
  | ⟨0, _⟩ => show win0_4.index t (0 : Fin 2) * 128 + 1 * (y 0).val = (i 0).val; omega
  | ⟨1, _⟩ => show win0_4.index t (1 : Fin 2) * 32 + 1 * (y 1).val = (i 1).val; omega

/-- Window 4's block at a point, of the array the region finds. -/
theorem iblk4_apply (c : Dev nD) (t : Fin cfg0.N) (y : S128x32.Idx) (i : S128x32.Idx)
    (h0 : (i 0).val = win0_4.index t (0 : Fin 2) * 128 + (y 0).val)
    (h1 : (i 1).val = win0_4.index t (1 : Fin 2) * 32 + (y 1).val) :
    (iblk m c 4 t : Vec Ideal S128x32 .f32) y = (V m c main_arg4 : S128x32.Idx → EReal) i := by
  unfold iblk
  exact read4 c (V m c) t y i h0 h1

/-- Window 5's block, of any family of arrays, at a point: the array read at block index × block extent + the coordinate
    inside the block. -/
theorem read5 (c : Dev nD) (A : (b : Ref sig .tc) → Buf (Elt Ideal) ((c : Thread nD τ).loc b)) (t : Fin cfg0.N)
    (y : S1x32.Idx) (i : S1x32.Idx)
    (h0 : (i 0).val = win0_5.index t (0 : Fin 2) * 1 + (y 0).val)
    (h1 : (i 1).val = win0_5.index t (1 : Fin 2) * 32 + (y 1).val) :
    (((cfg0.win 5).blk t).view.read (Elt Ideal) (A (Pipeline.arrRef spec0 5)) : Vec Ideal S1x32 .f32) y
      = (A main_v46 : S1x32.Idx → EReal) i := by
  rw [View.read_apply]
  show A main_v46 _ = A main_v46 _
  refine congrArg (A main_v46) (funext fun a => Fin.ext ?_)
  match a with
  | ⟨0, _⟩ => show win0_5.index t (0 : Fin 2) * 1 + 1 * (y 0).val = (i 0).val; omega
  | ⟨1, _⟩ => show win0_5.index t (1 : Fin 2) * 32 + 1 * (y 1).val = (i 1).val; omega

/-- Window 5's block at a point, of the array the region finds. -/
theorem iblk5_apply (c : Dev nD) (t : Fin cfg0.N) (y : S1x32.Idx) (i : S1x32.Idx)
    (h0 : (i 0).val = win0_5.index t (0 : Fin 2) * 1 + (y 0).val)
    (h1 : (i 1).val = win0_5.index t (1 : Fin 2) * 32 + (y 1).val) :
    (iblk m c 5 t : Vec Ideal S1x32 .f32) y = (V m c main_v46 : S1x32.Idx → EReal) i := by
  unfold iblk
  exact read5 c (V m c) t y i h0 h1

/-- Window 6's block, of any family of arrays, at a point: the array read at block index × block extent + the coordinate
    inside the block. -/
theorem read6 (c : Dev nD) (A : (b : Ref sig .tc) → Buf (Elt Ideal) ((c : Thread nD τ).loc b)) (t : Fin cfg0.N)
    (y : S32x32.Idx) (i : S32x32.Idx)
    (h0 : (i 0).val = win0_6.index t (0 : Fin 2) * 32 + (y 0).val)
    (h1 : (i 1).val = win0_6.index t (1 : Fin 2) * 32 + (y 1).val) :
    (((cfg0.win 6).blk t).view.read (Elt Ideal) (A (Pipeline.arrRef spec0 6)) : Vec Ideal S32x32 .f32) y
      = (A main_arg6 : S32x32.Idx → EReal) i := by
  rw [View.read_apply]
  show A main_arg6 _ = A main_arg6 _
  refine congrArg (A main_arg6) (funext fun a => Fin.ext ?_)
  match a with
  | ⟨0, _⟩ => show win0_6.index t (0 : Fin 2) * 32 + 1 * (y 0).val = (i 0).val; omega
  | ⟨1, _⟩ => show win0_6.index t (1 : Fin 2) * 32 + 1 * (y 1).val = (i 1).val; omega

/-- Window 6's block at a point, of the array the region finds. -/
theorem iblk6_apply (c : Dev nD) (t : Fin cfg0.N) (y : S32x32.Idx) (i : S32x32.Idx)
    (h0 : (i 0).val = win0_6.index t (0 : Fin 2) * 32 + (y 0).val)
    (h1 : (i 1).val = win0_6.index t (1 : Fin 2) * 32 + (y 1).val) :
    (iblk m c 6 t : Vec Ideal S32x32 .f32) y = (V m c main_arg6 : S32x32.Idx → EReal) i := by
  unfold iblk
  exact read6 c (V m c) t y i h0 h1

/-- Window 7's block, of any family of arrays, at a point: the array read at block index × block extent + the coordinate
    inside the block. -/
theorem read7 (c : Dev nD) (A : (b : Ref sig .tc) → Buf (Elt Ideal) ((c : Thread nD τ).loc b)) (t : Fin cfg0.N)
    (y : S1x32.Idx) (i : S1x32.Idx)
    (h0 : (i 0).val = win0_7.index t (0 : Fin 2) * 1 + (y 0).val)
    (h1 : (i 1).val = win0_7.index t (1 : Fin 2) * 32 + (y 1).val) :
    (((cfg0.win 7).blk t).view.read (Elt Ideal) (A (Pipeline.arrRef spec0 7)) : Vec Ideal S1x32 .f32) y
      = (A main_v47 : S1x32.Idx → EReal) i := by
  rw [View.read_apply]
  show A main_v47 _ = A main_v47 _
  refine congrArg (A main_v47) (funext fun a => Fin.ext ?_)
  match a with
  | ⟨0, _⟩ => show win0_7.index t (0 : Fin 2) * 1 + 1 * (y 0).val = (i 0).val; omega
  | ⟨1, _⟩ => show win0_7.index t (1 : Fin 2) * 32 + 1 * (y 1).val = (i 1).val; omega

/-- Window 7's block at a point, of the array the region finds. -/
theorem iblk7_apply (c : Dev nD) (t : Fin cfg0.N) (y : S1x32.Idx) (i : S1x32.Idx)
    (h0 : (i 0).val = win0_7.index t (0 : Fin 2) * 1 + (y 0).val)
    (h1 : (i 1).val = win0_7.index t (1 : Fin 2) * 32 + (y 1).val) :
    (iblk m c 7 t : Vec Ideal S1x32 .f32) y = (V m c main_v47 : S1x32.Idx → EReal) i := by
  unfold iblk
  exact read7 c (V m c) t y i h0 h1

/-- Window 8's block, of any family of arrays, at a point: the array read at block index × block extent + the coordinate
    inside the block. -/
theorem read8 (c : Dev nD) (A : (b : Ref sig .tc) → Buf (Elt Ideal) ((c : Thread nD τ).loc b)) (t : Fin cfg0.N)
    (y : S1x32.Idx) (i : S1x32.Idx)
    (h0 : (i 0).val = win0_8.index t (0 : Fin 2) * 1 + (y 0).val)
    (h1 : (i 1).val = win0_8.index t (1 : Fin 2) * 32 + (y 1).val) :
    (((cfg0.win 8).blk t).view.read (Elt Ideal) (A (Pipeline.arrRef spec0 8)) : Vec Ideal S1x32 .f32) y
      = (A main_v49 : S1x32.Idx → EReal) i := by
  rw [View.read_apply]
  show A main_v49 _ = A main_v49 _
  refine congrArg (A main_v49) (funext fun a => Fin.ext ?_)
  match a with
  | ⟨0, _⟩ => show win0_8.index t (0 : Fin 2) * 1 + 1 * (y 0).val = (i 0).val; omega
  | ⟨1, _⟩ => show win0_8.index t (1 : Fin 2) * 32 + 1 * (y 1).val = (i 1).val; omega

/-- Window 8's block at a point, of the array the region finds. -/
theorem iblk8_apply (c : Dev nD) (t : Fin cfg0.N) (y : S1x32.Idx) (i : S1x32.Idx)
    (h0 : (i 0).val = win0_8.index t (0 : Fin 2) * 1 + (y 0).val)
    (h1 : (i 1).val = win0_8.index t (1 : Fin 2) * 32 + (y 1).val) :
    (iblk m c 8 t : Vec Ideal S1x32 .f32) y = (V m c main_v49 : S1x32.Idx → EReal) i := by
  unfold iblk
  exact read8 c (V m c) t y i h0 h1

/-- Window 9's block, of any family of arrays, at a point: the array read at block index × block extent + the coordinate
    inside the block. -/
theorem read9 (c : Dev nD) (A : (b : Ref sig .tc) → Buf (Elt Ideal) ((c : Thread nD τ).loc b)) (t : Fin cfg0.N)
    (y : S1x1.Idx) (i : S1x1.Idx)
    (h0 : (i 0).val = win0_9.index t (0 : Fin 2) * 1 + (y 0).val)
    (h1 : (i 1).val = win0_9.index t (1 : Fin 2) * 1 + (y 1).val) :
    (((cfg0.win 9).blk t).view.read (Elt Ideal) (A (Pipeline.arrRef spec0 9)) : Vec Ideal S1x1 .f32) y
      = (A main_v48 : S1x1.Idx → EReal) i := by
  rw [View.read_apply]
  show A main_v48 _ = A main_v48 _
  refine congrArg (A main_v48) (funext fun a => Fin.ext ?_)
  match a with
  | ⟨0, _⟩ => show win0_9.index t (0 : Fin 2) * 1 + 1 * (y 0).val = (i 0).val; omega
  | ⟨1, _⟩ => show win0_9.index t (1 : Fin 2) * 1 + 1 * (y 1).val = (i 1).val; omega

/-- Window 9's block at a point, of the array the region finds. -/
theorem iblk9_apply (c : Dev nD) (t : Fin cfg0.N) (y : S1x1.Idx) (i : S1x1.Idx)
    (h0 : (i 0).val = win0_9.index t (0 : Fin 2) * 1 + (y 0).val)
    (h1 : (i 1).val = win0_9.index t (1 : Fin 2) * 1 + (y 1).val) :
    (iblk m c 9 t : Vec Ideal S1x1 .f32) y = (V m c main_v48 : S1x1.Idx → EReal) i := by
  unfold iblk
  exact read9 c (V m c) t y i h0 h1

end Cert.BlocksRead

end
-- ==== Proof.BlocksFlush.lean ====
/-
  What one grid point writes back.

  Point t writes back the block the kernel body left in the output's staging buffer. Row r of that block is the
  per-node output computed from row r of the staged blocks; the staged blocks are rows 5000·t + r of the aggregated
  features and of the node features, and the whole weight and bias operands. So point t writes block t of the
  output array "per-node output of node n, for every n".
-/

import proofs.«101228_j33243046871254_2_alg».proof.Proof.KValue
import proofs.«101228_j33243046871254_2_alg».proof.Proof.BlocksRow
import proofs.«101228_j33243046871254_2_alg».proof.Proof.BlocksRead
import Idealize.ShloMosaic.Lib.Pipeline.Value
import Idealize.ShloMosaic.Lib.ValueIdx
import Idealize.ShloMosaic.Lib.Tactic

noncomputable section

open scoped BigOperators

namespace Cert.BlocksFlush

open Idealize.ShloMosaic Idealize.ShloMosaic.TcCoe Idealize.SL.Sem Idealize.ShloMosaic.ValueIdx
open Idealize.ShloMosaic.Pipeline (Dat)
open Cert.KernelIdeal Cert.KernelIdeal.Gen Cert.BlocksRow Cert.BlocksRead

variable (m : (ℓ : Loc nD τ sig) → Buf (Elt Ideal) ℓ) (ρ : Dev nD → PrngReg)

/-- Row r of what point t leaves for the output, computed from the blocks of any family of arrays `A`: the per-node
    output of node 5000·t + r from those arrays. -/
theorem flush_row (c : Dev nD) (A : (b : Ref sig .tc) → Buf (Elt Ideal) ((c : Thread nD τ).loc b)) (t : Fin cfg0.N) (r : Fin 5000)
    (n : Fin 50000) (hnv : n.val = t.val * 5000 + r.val) :
    out0_10 (((cfg0.win 0).blk t).view.read (Elt Ideal) (A (Pipeline.arrRef spec0 0)) : Vec Ideal S5000x128 .f32)
        (((cfg0.win 1).blk t).view.read (Elt Ideal) (A (Pipeline.arrRef spec0 1)) : Vec Ideal S5000x128 .f32)
        (((cfg0.win 2).blk t).view.read (Elt Ideal) (A (Pipeline.arrRef spec0 2)) : Vec Ideal S128x128 .f32)
        (((cfg0.win 3).blk t).view.read (Elt Ideal) (A (Pipeline.arrRef spec0 3)) : Vec Ideal S1x128 .f32)
        (((cfg0.win 4).blk t).view.read (Elt Ideal) (A (Pipeline.arrRef spec0 4)) : Vec Ideal S128x32 .f32)
        (((cfg0.win 5).blk t).view.read (Elt Ideal) (A (Pipeline.arrRef spec0 5)) : Vec Ideal S1x32 .f32)
        (((cfg0.win 6).blk t).view.read (Elt Ideal) (A (Pipeline.arrRef spec0 6)) : Vec Ideal S32x32 .f32)
        (((cfg0.win 7).blk t).view.read (Elt Ideal) (A (Pipeline.arrRef spec0 7)) : Vec Ideal S1x32 .f32)
        (((cfg0.win 8).blk t).view.read (Elt Ideal) (A (Pipeline.arrRef spec0 8)) : Vec Ideal S1x32 .f32)
        (((cfg0.win 9).blk t).view.read (Elt Ideal) (A (Pipeline.arrRef spec0 9)) : Vec Ideal S1x1 .f32) (ix2 r (0 : Fin 1))
      = nodeOut (A main_v44) (A main_arg0) (A main_arg2) (A main_v45) (A main_arg4) (A main_v46) (A main_arg6) (A main_v47) (A main_v49) (A main_v48) n := by
  obtain ⟨e0, e1, e2, e3, e4, e5, e6, e7, e8, e9, e10, e11, e12, e13, e14, e15, e16, e17, e18, e19, e20, e21⟩ := idx_facts t
  have hN : cfg0.N = 10 := N_0
  have ht : t.val < 10 := by have := t.isLt; omega
  have hr : r.val < 5000 := r.isLt
  refine (out_row _ _ _ _ _ _ _ _ _ _ r).trans ?_
  have a0 : ∀ d : Fin 128, (((cfg0.win 0).blk t).view.read (Elt Ideal) (A (Pipeline.arrRef spec0 0)) : Vec Ideal S5000x128 .f32) (ix2 r d) = (A main_v44 : S50000x128.Idx → EReal) (ix2 n d) := fun d =>
    read0 c A t _ _ (by show n.val = win0_0.index t (0 : Fin 2) * 5000 + r.val; omega) (by show d.val = win0_0.index t (1 : Fin 2) * 128 + d.val; omega)
  have a1 : ∀ d : Fin 128, (((cfg0.win 1).blk t).view.read (Elt Ideal) (A (Pipeline.arrRef spec0 1)) : Vec Ideal S5000x128 .f32) (ix2 r d) = (A main_arg0 : S50000x128.Idx → EReal) (ix2 n d) := fun d =>
    read1 c A t _ _ (by show n.val = win0_1.index t (0 : Fin 2) * 5000 + r.val; omega) (by show d.val = win0_1.index t (1 : Fin 2) * 128 + d.val; omega)
  have a2 : ∀ (d : Fin 128) (j : Fin 128), (((cfg0.win 2).blk t).view.read (Elt Ideal) (A (Pipeline.arrRef spec0 2)) : Vec Ideal S128x128 .f32) (ix2 d j) = (A main_arg2 : S128x128.Idx → EReal) (ix2 d j) := fun d j =>
    read2 c A t _ _ (by show d.val = win0_2.index t (0 : Fin 2) * 128 + d.val; omega) (by show j.val = win0_2.index t (1 : Fin 2) * 128 + j.val; omega)
  have a3 : ∀ j : Fin 128, (((cfg0.win 3).blk t).view.read (Elt Ideal) (A (Pipeline.arrRef spec0 3)) : Vec Ideal S1x128 .f32) (ix2 (0 : Fin 1) j) = (A main_v45 : S1x128.Idx → EReal) (ix2 (0 : Fin 1) j) := fun j =>
    read3 c A t _ _ (by show (0 : ℕ) = win0_3.index t (0 : Fin 2) * 1 + 0; omega) (by show j.val = win0_3.index t (1 : Fin 2) * 128 + j.val; omega)
  have a4 : ∀ (k : Fin 128) (j : Fin 32), (((cfg0.win 4).blk t).view.read (Elt Ideal) (A (Pipeline.arrRef spec0 4)) : Vec Ideal S128x32 .f32) (ix2 k j) = (A main_arg4 : S128x32.Idx → EReal) (ix2 k j) := fun k j =>
    read4 c A t _ _ (by show k.val = win0_4.index t (0 : Fin 2) * 128 + k.val; omega) (by show j.val = win0_4.index t (1 : Fin 2) * 32 + j.val; omega)
  have a5 : ∀ j : Fin 32, (((cfg0.win 5).blk t).view.read (Elt Ideal) (A (Pipeline.arrRef spec0 5)) : Vec Ideal S1x32 .f32) (ix2 (0 : Fin 1) j) = (A main_v46 : S1x32.Idx → EReal) (ix2 (0 : Fin 1) j) := fun j =>
    read5 c A t _ _ (by show (0 : ℕ) = win0_5.index t (0 : Fin 2) * 1 + 0; omega) (by show j.val = win0_5.index t (1 : Fin 2) * 32 + j.val; omega)
  have a6 : ∀ (k : Fin 32) (j : Fin 32), (((cfg0.win 6).blk t).view.read (Elt Ideal) (A (Pipeline.arrRef spec0 6)) : Vec Ideal S32x32 .f32) (ix2 k j) = (A main_arg6 : S32x32.Idx → EReal) (ix2 k j) := fun k j =>
    read6 c A t _ _ (by show k.val = win0_6.index t (0 : Fin 2) * 32 + k.val; omega) (by show j.val = win0_6.index t (1 : Fin 2) * 32 + j.val; omega)
  have a7 : ∀ j : Fin 32, (((cfg0.win 7).blk t).view.read (Elt Ideal) (A (Pipeline.arrRef spec0 7)) : Vec Ideal S1x32 .f32) (ix2 (0 : Fin 1) j) = (A main_v47 : S1x32.Idx → EReal) (ix2 (0 : Fin 1) j) := fun j =>
    read7 c A t _ _ (by show (0 : ℕ) = win0_7.index t (0 : Fin 2) * 1 + 0; omega) (by show j.val = win0_7.index t (1 : Fin 2) * 32 + j.val; omega)
  have a8 : ∀ k : Fin 32, (((cfg0.win 8).blk t).view.read (Elt Ideal) (A (Pipeline.arrRef spec0 8)) : Vec Ideal S1x32 .f32) (ix2 (0 : Fin 1) k) = (A main_v49 : S1x32.Idx → EReal) (ix2 (0 : Fin 1) k) := fun k =>
    read8 c A t _ _ (by show (0 : ℕ) = win0_8.index t (0 : Fin 2) * 1 + 0; omega) (by show k.val = win0_8.index t (1 : Fin 2) * 32 + k.val; omega)
  have a9 : (((cfg0.win 9).blk t).view.read (Elt Ideal) (A (Pipeline.arrRef spec0 9)) : Vec Ideal S1x1 .f32) (ix2 (0 : Fin 1) (0 : Fin 1)) = (A main_v48 : S1x1.Idx → EReal) (ix2 (0 : Fin 1) (0 : Fin 1)) :=
    read9 c A t _ _ (by show (0 : ℕ) = win0_9.index t (0 : Fin 2) * 1 + 0; omega) (by show (0 : ℕ) = win0_9.index t (1 : Fin 2) * 1 + 0; omega)
  unfold nodeOut
  simp only [a0, a1, a2, a3, a4, a5, a6, a7, a8, a9]

set_option maxHeartbeats 1000000 in
/-- What point t would write back from the blocks of any family of arrays is block t of the output array computed
    from those arrays. -/
theorem flush_var (c : Dev nD) (A : (b : Ref sig .tc) → Buf (Elt Ideal) ((c : Thread nD τ).loc b)) (t : Fin cfg0.N) :
    (cfg0.win 10).cut (grid0.coords t) (out0_10 (((cfg0.win 0).blk t).view.read (Elt Ideal) (A (Pipeline.arrRef spec0 0)) : Vec Ideal S5000x128 .f32)
        (((cfg0.win 1).blk t).view.read (Elt Ideal) (A (Pipeline.arrRef spec0 1)) : Vec Ideal S5000x128 .f32)
        (((cfg0.win 2).blk t).view.read (Elt Ideal) (A (Pipeline.arrRef spec0 2)) : Vec Ideal S128x128 .f32)
        (((cfg0.win 3).blk t).view.read (Elt Ideal) (A (Pipeline.arrRef spec0 3)) : Vec Ideal S1x128 .f32)
        (((cfg0.win 4).blk t).view.read (Elt Ideal) (A (Pipeline.arrRef spec0 4)) : Vec Ideal S128x32 .f32)
        (((cfg0.win 5).blk t).view.read (Elt Ideal) (A (Pipeline.arrRef spec0 5)) : Vec Ideal S1x32 .f32)
        (((cfg0.win 6).blk t).view.read (Elt Ideal) (A (Pipeline.arrRef spec0 6)) : Vec Ideal S32x32 .f32)
        (((cfg0.win 7).blk t).view.read (Elt Ideal) (A (Pipeline.arrRef spec0 7)) : Vec Ideal S1x32 .f32)
        (((cfg0.win 8).blk t).view.read (Elt Ideal) (A (Pipeline.arrRef spec0 8)) : Vec Ideal S1x32 .f32)
        (((cfg0.win 9).blk t).view.read (Elt Ideal) (A (Pipeline.arrRef spec0 9)) : Vec Ideal S1x1 .f32))
      = ((cfg0.win 10).blk t).view.read (Elt Ideal) (outArr (A main_v44) (A main_arg0) (A main_arg2) (A main_v45) (A main_arg4) (A main_v46) (A main_arg6) (A main_v47) (A main_v49) (A main_v48)) := by
  obtain ⟨e0, e1, e2, e3, e4, e5, e6, e7, e8, e9, e10, e11, e12, e13, e14, e15, e16, e17, e18, e19, e20, e21⟩ := idx_facts t
  have hN : cfg0.N = 10 := N_0
  have ht : t.val < 10 := by have := t.isLt; omega
  refine funext fun (y : S5000x1.Idx) => ?_
  obtain ⟨r, q, rfl⟩ : ∃ (r : Fin 5000) (q : Fin 1), y = ix2 r q := ⟨y 0, y 1, eq_ix2 y⟩
  obtain rfl : q = 0 := Subsingleton.elim _ _
  have hr : r.val < 5000 := r.isLt
  rw [View.read_apply]
  show out0_10 (((cfg0.win 0).blk t).view.read (Elt Ideal) (A (Pipeline.arrRef spec0 0)) : Vec Ideal S5000x128 .f32)
        (((cfg0.win 1).blk t).view.read (Elt Ideal) (A (Pipeline.arrRef spec0 1)) : Vec Ideal S5000x128 .f32)
        (((cfg0.win 2).blk t).view.read (Elt Ideal) (A (Pipeline.arrRef spec0 2)) : Vec Ideal S128x128 .f32)
        (((cfg0.win 3).blk t).view.read (Elt Ideal) (A (Pipeline.arrRef spec0 3)) : Vec Ideal S1x128 .f32)
        (((cfg0.win 4).blk t).view.read (Elt Ideal) (A (Pipeline.arrRef spec0 4)) : Vec Ideal S128x32 .f32)
        (((cfg0.win 5).blk t).view.read (Elt Ideal) (A (Pipeline.arrRef spec0 5)) : Vec Ideal S1x32 .f32)
        (((cfg0.win 6).blk t).view.read (Elt Ideal) (A (Pipeline.arrRef spec0 6)) : Vec Ideal S32x32 .f32)
        (((cfg0.win 7).blk t).view.read (Elt Ideal) (A (Pipeline.arrRef spec0 7)) : Vec Ideal S1x32 .f32)
        (((cfg0.win 8).blk t).view.read (Elt Ideal) (A (Pipeline.arrRef spec0 8)) : Vec Ideal S1x32 .f32)
        (((cfg0.win 9).blk t).view.read (Elt Ideal) (A (Pipeline.arrRef spec0 9)) : Vec Ideal S1x1 .f32) (ix2 r (0 : Fin 1))
    = nodeOut (A main_v44) (A main_arg0) (A main_arg2) (A main_v45) (A main_arg4) (A main_v46) (A main_arg6) (A main_v47) (A main_v49) (A main_v48) ⟨win0_10.index t (0 : Fin 2) * 5000 + 1 * r.val, by omega⟩
  exact flush_row c A t r _ (by show win0_10.index t (0 : Fin 2) * 5000 + 1 * r.val = _; omega)

/-- What point t writes back is block t of the output array. -/
theorem flushed_eq (c : Dev nD) (t : Fin cfg0.N) :
    (dats m 0 c).flushed 10 t = ((cfg0.win 10).blk t).view.read (Elt Ideal)
      (outArr (V m c main_v44) (V m c main_arg0) (V m c main_arg2) (V m c main_v45) (V m c main_arg4) (V m c main_v46)
        (V m c main_arg6) (V m c main_v47) (V m c main_v49) (V m c main_v48)) :=
  (Cert.KernelIdeal.ValueP.flushed10 m c t).trans (flush_var c (V m c) t)

end Cert.BlocksFlush

end
-- ==== Proof.Blocks.lean ====
/-
  From the grid's blocks to the whole output array.

  The grid has ten points; point t handles nodes 5000·t … 5000·t + 4999: it stages that block of rows of the aggregated
  features and of the node features, the whole of every weight and bias operand, and writes back that block of rows
  of the one-column output. Every node lies in exactly one block (node n in block n / 5000), so the output array
  after the run is, at every node n, the per-node output of the specification computed from row n of the
  aggregated features and of the node features as the region found them:

      out n = rowOut ( j ↦ ∑_d agg (n, d) · W (d, j) ) b (x row n) W1 b1 W2 b2 w3 b3 .
-/

import proofs.«101228_j33243046871254_2_alg».proof.Proof.KValue
import proofs.«101228_j33243046871254_2_alg».proof.Proof.BlocksRow
import proofs.«101228_j33243046871254_2_alg».proof.Proof.BlocksRead
import proofs.«101228_j33243046871254_2_alg».proof.Proof.BlocksFlush
import Idealize.ShloMosaic.Lib.Pipeline.Value
import Idealize.ShloMosaic.Lib.ValueIdx
import Idealize.ShloMosaic.Lib.Tactic

noncomputable section

open scoped BigOperators

namespace Cert.Blocks

open Idealize.ShloMosaic Idealize.ShloMosaic.TcCoe Idealize.SL.Sem Idealize.ShloMosaic.ValueIdx
open Idealize.ShloMosaic.Pipeline (Dat)
open Cert.KernelIdeal Cert.KernelIdeal.Gen Cert.BlocksRow Cert.BlocksRead Cert.BlocksFlush

variable (m : (ℓ : Loc nD τ sig) → Buf (Elt Ideal) ℓ) (ρ : Dev nD → PrngReg)

/-! ## The cover and the whole array -/

/-- An index of the output array is in point t's block iff each coordinate is in the block's range on its axis. -/
theorem mem_blk (t : Fin cfg0.N) (i : S50000x1.Idx) :
    i ∈ ((cfg0.win 10).blk t).view.set ↔ ∀ a : Fin 2, win0_10.index t a * S5000x1.size a ≤ (i a).val
      ∧ (i a).val < win0_10.index t a * S5000x1.size a + S5000x1.size a := by
  show i ∈ ((View.whole main_v50).slice (win0_10.rect t)).set ↔ _
  rw [View.set_slice_whole, Rect.mem_set_unit]
  exact Iff.rfl

/-- Every node lies in some point's block: node n in block n / 5000. -/
theorem cover (i : S50000x1.Idx) : ∃ t : Fin cfg0.N, (cfg0.win 10).flush t = true ∧ i ∈ ((cfg0.win 10).blk t).view.set := by
  have hi0 : (i 0).val < 50000 := (i 0).isLt
  have hi1 : (i 1).val < 1 := (i 1).isLt
  have hN : cfg0.N = 10 := N_0
  let t : Fin cfg0.N := ⟨(i 0).val / 5000, by rw [hN]; omega⟩
  obtain ⟨e0, e1, e2, e3, e4, e5, e6, e7, e8, e9, e10, e11, e12, e13, e14, e15, e16, e17, e18, e19, e20, e21⟩ := idx_facts t
  refine ⟨t, flush0_10 t, ?_⟩
  rw [mem_blk]
  intro a
  have htv : t.val = (i 0).val / 5000 := rfl
  match a with
  | ⟨0, _⟩ =>
    show win0_10.index t (0 : Fin 2) * 5000 ≤ (i 0).val ∧ (i 0).val < win0_10.index t (0 : Fin 2) * 5000 + 5000
    rw [e20, htv]; omega
  | ⟨1, _⟩ =>
    show win0_10.index t (1 : Fin 2) * 1 ≤ (i 1).val ∧ (i 1).val < win0_10.index t (1 : Fin 2) * 1 + 1
    rw [e21]; omega

/-- The output array after the run. -/
theorem final (c : Dev nD) : (dats m 0 c).arrAt 10 cfg0.N
    = outArr (V m c main_v44) (V m c main_arg0) (V m c main_arg2) (V m c main_v45) (V m c main_arg4) (V m c main_v46)
        (V m c main_arg6) (V m c main_v47) (V m c main_v49) (V m c main_v48) :=
  (dats m 0 c).arrAt_eq_of_cover 10 _ (fun t _ => flushed_eq m c t) cover

end Cert.Blocks

end
-- ==== Proof.LibFoldStretch.lean ====
/-
  Reading a straight line of host operations a stretch at a time, and the typed references of an inlined function.

  The contents after a line of host operations are a fold of the operations' results over the starting contents. The fold
  over two stretches run one after the other is the fold over the second started from the fold over the first, so a long
  line can be read stretch by stretch, each stretch over an arbitrary starting valuation.

  The operations of a function the compiler inlined are stated over typed references: a value is carried to the buffer's
  own type when written and back when read, along the equation between the two types. Carried there and back it is the
  value it was; with this the composed term of such a stretch loses every inner pair of transports, and only the outermost
  write and the reads of buffers written outside the function keep one.
-/
import Idealize.ShloMosaic.Lib.StableHlo.Run

noncomputable section

namespace Cert.LibFoldStretch

open Idealize.ShloMosaic Idealize.ShloMosaic.StableHlo

variable {τ : Topo} {sig : RefSig} {Val : EltTy → Type}

/-- The fold over two stretches run one after the other is the fold over the second from the fold over the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's buffer and back are the contents. -/
theorem ofBuf_toBuf {T : BufTy} (x : TRef sig T) (v : T.Contents Val) : x.ofBuf (x.toBuf v) = v := by
  obtain ⟨r, h1, h2, h3⟩ := x
  subst h1
  rfl

/-- Contents read from a typed reference's buffer and written back are the contents. -/
theorem toBuf_ofBuf {T : BufTy} (x : TRef sig T) (v : x.ref.ty.Contents Val) : x.toBuf (x.ofBuf v) = v := by
  obtain ⟨r, h1, h2, h3⟩ := x
  subst h1
  rfl

end Cert.LibFoldStretch

end
-- ==== Proof.KernelAgg.lean ====
/-
  What the kernel's program has computed when its one region is entered: the aggregated node features.

  Before the region the program builds the edge list, the coefficients and the aggregated node features — the SAME
  index arithmetic and the same coefficient formula as the reference, applied to the node features themselves (rounded
  to a shorter float format for the gather and widened again: the identity on the extended reals) instead of to
  their products with the weight matrix. The line of host operations is read in its three stretches, each over an
  arbitrary starting valuation:

    * the first stretch builds the two edge-word vectors (sources, targets), the in-degree's positivity mask and
      its inverse square root: each is, term for term, the reference's;
    * the second (an inlined select) chooses the inverse square root where the mask holds and zero elsewhere;
    * the third wraps negative words, gathers, scales and scatter-adds.

  So the region finds  agg = aggregate (x)  in the reference's own vocabulary of edges.
-/
import proofs.«101228_j33243046871254_2_alg».proof.Proof.Gen.KernelIdeal.Frame
import proofs.«101228_j33243046871254_2_alg».proof.Proof.RefRead
import proofs.«101228_j33243046871254_2_alg».proof.Proof.LibFoldStretch
import Idealize.ShloMosaic.Lib.StableHlo.Run
import Idealize.ShloMosaic.Lib.ValueIdx
import Idealize.ShloMosaic.PureOps.Ideal

noncomputable section

namespace Cert.KernelAgg

open Idealize.ShloMosaic Idealize.ShloMosaic.TcCoe Idealize.SL.Sem Idealize.ShloMosaic.StableHlo Idealize.ShloMosaic.ValueIdx
open Cert.KernelIdeal Cert.KernelIdeal.Gen

/-! ## The kernel's host terms, over variables -/

/-- Negative index words wrapped by the node count, as a column of words. -/
def wrapK (v : IVec S650000 32) : IVec S650000x1 32 :=
  broadcastInDim S650000x1 ![0] bcast_S650000_S650000x1_0
    (select (cmpi .slt v (broadcastInDim S650000 ![] bcast_S_S650000 (constantI S_ 32 0#32)))
      (addi v (broadcastInDim S650000 ![] bcast_S_S650000 (constantI S_ 32 50000#32))) v)

/-- The chosen inverse square root: `q` where the mask `p` holds, the scalar `z` elsewhere. -/
def dinvK (p : IVec S50000 1) (q : FVec Ideal S50000 .f32) (z : FVec Ideal S_ .f32) : FVec Ideal S50000 .f32 :=
  select p q (broadcastInDim S50000 ![] bcast_S_S50000 z)

/-- The aggregation of the node features `a` along source words `r`, target words `c`, with per-node factors `dv`. -/
def aggK (a : FVec Ideal S50000x128 .f32) (r c : IVec S650000 32) (dv : FVec Ideal S50000 .f32) : FVec Ideal S50000x128 .f32 :=
  Host.scatterAdd scatter_S50000x128_S650000x1_S650000x128_1_0_0_1
    (broadcastInDim S50000x128 ![] bcast_S_S50000x128 (constant S_ .f32 0x00000000#32))
    (broadcastInDim S650000x1 ![0] bcast_S650000_S650000x1_0 c)
    (mulf (extf .f32 (Host.gather gather_S50000x128_S650000x1_S650000x128_1_0_n_n_0_1_1128 (truncf .bf16 a bitsLt_bf16_f32) (wrapK r)) bitsLt_bf16_f32)
      (broadcastInDim S650000x128 ![0, 1] bcast_S650000x1_S650000x128_0_1
        (broadcastInDim S650000x1 ![0] bcast_S650000_S650000x1_0
          (mulf (Host.gather gather_S50000_S650000x1_S650000_n_0_n_n_0_1_1 dv (wrapK r))
            (Host.gather gather_S50000_S650000x1_S650000_n_0_n_n_0_1_1 dv (wrapK c))))))

/-! ## The three stretches -/

set_option maxHeartbeats 4000000 in
/-- The last stretch from any valuation: the aggregation of what it finds. -/
theorem stageC (W : Valuation τ sig (Elt Ideal)) :
    (after hostOps0_2 W (Proc.devRef .tc main_v44) : FVec Ideal S50000x128 .f32)
      = aggK (W (Proc.devRef .tc main_arg0)) (W (Proc.devRef .tc main_v3)) (W (Proc.devRef .tc main_v6)) (W (Proc.devRef .tc main_v14)) := by
  simp only [hostOps0_2]
  after_results_simp
  rfl

set_option maxHeartbeats 4000000 in
/-- The middle stretch from any valuation: the chosen inverse square root. -/
theorem stageB (W : Valuation τ sig (Elt Ideal)) :
    (after hostOps0_1 W (Proc.devRef .tc main_v14) : FVec Ideal S50000 .f32)
      = dinvK (W (Proc.devRef .tc main_v12)) (W (Proc.devRef .tc main_v13)) (W (Proc.devRef .tc main_cst_2)) := by
  simp only [hostOps0_1]
  after_results_simp
  simp only [Cert.LibFoldStretch.ofBuf_toBuf, Cert.LibFoldStretch.toBuf_ofBuf]
  rfl

set_option maxHeartbeats 4000000 in
/-- The middle stretch leaves the source words, the target words and the node features as they were. -/
theorem stageB_keep (W : Valuation τ sig (Elt Ideal)) :
    after hostOps0_1 W (Proc.devRef .tc main_v3) = W (Proc.devRef .tc main_v3)
    ∧ after hostOps0_1 W (Proc.devRef .tc main_v6) = W (Proc.devRef .tc main_v6)
    ∧ after hostOps0_1 W (Proc.devRef .tc main_arg0) = W (Proc.devRef .tc main_arg0) := by
  simp only [hostOps0_1]
  refine ⟨?_, ?_, ?_⟩ <;> after_results_simp

variable (m : (ℓ : Loc nD τ sig) → Buf (Elt Ideal) ℓ)

set_option maxHeartbeats 4000000 in
/-- The first stretch: the source words, as the reference builds them. -/
theorem stageA_src (c : Dev nD) :
    (after hostOps0 (fun b => m (c, b)) (Proc.devRef .tc main_v3) : IVec S650000 32)
      = Cert.ReferenceIdeal.ReadP.val_main_v4 (F := Ideal) (m ((c : Thread nD τ).loc main_arg1)) := by
  simp only [hostOps0]
  after_results_simp
  rfl

set_option maxHeartbeats 4000000 in
/-- The first stretch: the target words, as the reference builds them. -/
theorem stageA_tgt (c : Dev nD) :
    (after hostOps0 (fun b => m (c, b)) (Proc.devRef .tc main_v6) : IVec S650000 32)
      = Cert.ReferenceIdeal.ReadP.val_main_v7 (F := Ideal) (m ((c : Thread nD τ).loc main_arg1)) := by
  simp only [hostOps0]
  after_results_simp
  rfl

set_option maxHeartbeats 4000000 in
/-- The first stretch: the mask "the in-degree is positive", as the reference builds it. -/
theorem stageA_mask (c : Dev nD) :
    (after hostOps0 (fun b => m (c, b)) (Proc.devRef .tc main_v12) : IVec S50000 1)
      = Cert.ReferenceIdeal.ReadP.val_main_v13 (F := Ideal) (m ((c : Thread nD τ).loc main_arg1)) := by
  simp only [hostOps0]
  after_results_simp
  rfl

set_option maxHeartbeats 4000000 in
/-- The first stretch: the inverse square root of the in-degree, as the reference builds it. -/
theorem stageA_rsqrt (c : Dev nD) :
    (after hostOps0 (fun b => m (c, b)) (Proc.devRef .tc main_v13) : FVec Ideal S50000 .f32)
      = Cert.ReferenceIdeal.ReadP.val_main_v14 (F := Ideal) (m ((c : Thread nD τ).loc main_arg1)) := by
  simp only [hostOps0]
  after_results_simp
  rfl

set_option maxHeartbeats 4000000 in
/-- The first stretch: the zero the select falls back to, and the node features untouched. -/
theorem stageA_rest (c : Dev nD) :
    (after hostOps0 (fun b => m (c, b)) (Proc.devRef .tc main_cst_2) : FVec Ideal S_ .f32)
        = Cert.ReferenceIdeal.ReadP.val_main_cst_2 (F := Ideal)
    ∧ (after hostOps0 (fun b => m (c, b)) (Proc.devRef .tc main_arg0) : FVec Ideal S50000x128 .f32)
        = m ((c : Thread nD τ).loc main_arg0) := by
  simp only [hostOps0]
  refine ⟨?_, ?_⟩
  · after_results_simp <;> rfl
  · after_results_simp <;> rfl

/-! ## The kernel's term is the reference's aggregation of the node features -/

/-- With the reference's own edge words, mask and inverse square root, the kernel's aggregation term is the
    reference's aggregation (scatter-add of gathered, scaled rows) applied to the node features. -/
theorem aggK_ref (x0 : FVec Ideal S50000x128 .f32) (x1 : (⟨Cert.ReferenceIdeal.S2x600000, .i32⟩ : BufTy).Contents (Elt Ideal)) :
    aggK x0 (Cert.ReferenceIdeal.ReadP.val_main_v4 (F := Ideal) x1) (Cert.ReferenceIdeal.ReadP.val_main_v7 (F := Ideal) x1)
        (dinvK (Cert.ReferenceIdeal.ReadP.val_main_v13 (F := Ideal) x1) (Cert.ReferenceIdeal.ReadP.val_main_v14 (F := Ideal) x1)
          (Cert.ReferenceIdeal.ReadP.val_main_cst_2 (F := Ideal)))
      = Host.scatterAdd (F := Ideal) Cert.ReferenceIdeal.scatter_S50000x128_S650000x1_S650000x128_1_0_0_1
          (Cert.ReferenceIdeal.ReadP.val_main_v41 (F := Ideal)) (Cert.ReferenceIdeal.ReadP.val_main_v42 (F := Ideal) x1)
          (mulf (Host.gather Cert.ReferenceIdeal.gather_S50000x128_S650000x1_S650000x128_1_0_n_n_0_1_1128 x0
              (Cert.ReferenceIdeal.ReadP.val_main_v36 (F := Ideal) x1))
            (Cert.ReferenceIdeal.ReadP.val_main_v39 (F := Ideal) x1)) := rfl

/-- The buffers at region entry are the three stretches folded in order. -/
theorem V_split (c : Dev nD) (b : Ref sig .tc) :
    V (F := Ideal) m c b = after hostOps0_2 (after hostOps0_1 (after hostOps0 (fun b => m (c, b)))) (Proc.devRef .tc b) := by
  show after (List.flatten [hostOps0, hostOps0_1, hostOps0_2]) (fun b => m (c, b)) (Proc.devRef .tc b) = _
  rw [List.flatten_cons, List.flatten_cons, List.flatten_cons, List.flatten_nil, List.append_nil,
    Cert.LibFoldStretch.after_append, Cert.LibFoldStretch.after_append]

/-- THE AGGREGATED FEATURES as the region finds them: the reference's aggregation applied to the node features. -/
theorem V_agg (c : Dev nD) :
    (V (F := Ideal) m c main_v44 : FVec Ideal S50000x128 .f32)
      = Host.scatterAdd (F := Ideal) (φ := .f32) Cert.ReferenceIdeal.scatter_S50000x128_S650000x1_S650000x128_1_0_0_1
          (Cert.ReferenceIdeal.ReadP.val_main_v41 (F := Ideal))
          (Cert.ReferenceIdeal.ReadP.val_main_v42 (F := Ideal) (m ((c : Thread nD τ).loc main_arg1)))
          (mulf (F := Ideal) (φ := .f32) (Host.gather (α := EReal) Cert.ReferenceIdeal.gather_S50000x128_S650000x1_S650000x128_1_0_n_n_0_1_1128
              (m ((c : Thread nD τ).loc main_arg0) : FVec Ideal S50000x128 .f32)
              (Cert.ReferenceIdeal.ReadP.val_main_v36 (F := Ideal) (m ((c : Thread nD τ).loc main_arg1))))
            (Cert.ReferenceIdeal.ReadP.val_main_v39 (F := Ideal) (m ((c : Thread nD τ).loc main_arg1)))) := by
  obtain ⟨k3, k6, k0⟩ := stageB_keep (after hostOps0 (fun b => m (c, b)))
  obtain ⟨hz2, hx0⟩ := stageA_rest m c
  rw [V_split, stageC, stageB, k3, k6, k0, stageA_src, stageA_tgt, stageA_mask, stageA_rsqrt, hz2, hx0]
  exact aggK_ref _ _

end Cert.KernelAgg

end
-- ==== Proof.KernelOps.lean ====
/-
  The re-laid operands as the region finds them.

  Before the region the program re-lays the three bias vectors and the last bias as one-row matrices, and the last
  weight column (32 × 1) as a row (1 × 32). A re-laying keeps the row-major order of the elements, so each one-row
  matrix reads, at (0, j), its vector at j, and the weight row reads, at (0, k), the column at (k, 0).
-/
import proofs.«101228_j33243046871254_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.KernelOps

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

set_option maxHeartbeats 4000000 in
/-- Buffer `main_v45` at region entry is argument `main_arg3` re-laid. -/
theorem V_b (c : Dev nD) :
    (V (F := Ideal) m c main_v45 : FVec Ideal S1x128 .f32)
      = shapeCast S1x128 (m ((c : Thread nD τ).loc main_arg3) : FVec Ideal S128 .f32) shapeCasts_S128_S1x128 := by
  dsimp only [V]
  simp only [hostOps0, hostOps0_1, hostOps0_2, List.flatten_cons, List.flatten_nil, List.append_nil, List.cons_append,
    List.nil_append]
  after_results_simp
  rfl

set_option maxHeartbeats 4000000 in
/-- Buffer `main_v46` at region entry is argument `main_arg5` re-laid. -/
theorem V_b1 (c : Dev nD) :
    (V (F := Ideal) m c main_v46 : FVec Ideal S1x32 .f32)
      = shapeCast S1x32 (m ((c : Thread nD τ).loc main_arg5) : FVec Ideal S32 .f32) shapeCasts_S32_S1x32 := by
  dsimp only [V]
  simp only [hostOps0, hostOps0_1, hostOps0_2, List.flatten_cons, List.flatten_nil, List.append_nil, List.cons_append,
    List.nil_append]
  after_results_simp
  rfl

set_option maxHeartbeats 4000000 in
/-- Buffer `main_v47` at region entry is argument `main_arg7` re-laid. -/
theorem V_b2 (c : Dev nD) :
    (V (F := Ideal) m c main_v47 : FVec Ideal S1x32 .f32)
      = shapeCast S1x32 (m ((c : Thread nD τ).loc main_arg7) : FVec Ideal S32 .f32) shapeCasts_S32_S1x32 := by
  dsimp only [V]
  simp only [hostOps0, hostOps0_1, hostOps0_2, List.flatten_cons, List.flatten_nil, List.append_nil, List.cons_append,
    List.nil_append]
  after_results_simp
  rfl

set_option maxHeartbeats 4000000 in
/-- Buffer `main_v48` at region entry is argument `main_arg9` re-laid. -/
theorem V_b3 (c : Dev nD) :
    (V (F := Ideal) m c main_v48 : FVec Ideal S1x1 .f32)
      = shapeCast S1x1 (m ((c : Thread nD τ).loc main_arg9) : FVec Ideal S1 .f32) shapeCasts_S1_S1x1 := by
  dsimp only [V]
  simp only [hostOps0, hostOps0_1, hostOps0_2, List.flatten_cons, List.flatten_nil, List.append_nil, List.cons_append,
    List.nil_append]
  after_results_simp
  rfl

set_option maxHeartbeats 4000000 in
/-- Buffer `main_v49` at region entry is argument `main_arg8` re-laid. -/
theorem V_w3 (c : Dev nD) :
    (V (F := Ideal) m c main_v49 : FVec Ideal S1x32 .f32)
      = shapeCast S1x32 (m ((c : Thread nD τ).loc main_arg8) : FVec Ideal S32x1 .f32) shapeCasts_S32x1_S1x32 := by
  dsimp only [V]
  simp only [hostOps0, hostOps0_1, hostOps0_2, List.flatten_cons, List.flatten_nil, List.append_nil, List.cons_append,
    List.nil_append]
  after_results_simp
  rfl

/-- The convolution's bias row at (0, j) is the bias vector at j. -/
theorem b_apply (c : Dev nD) (j : Fin 128) :
    (V (F := Ideal) m c main_v45 : FVec Ideal S1x128 .f32) (ix2 (0 : Fin 1) j)
      = (m ((c : Thread nD τ).loc main_arg3) : FVec Ideal S128 .f32) (ix1 j) := by
  rw [V_b]; exact shapeCast_a_1a_apply _ _ 0 j

/-- The first dense layer's bias row at (0, j). -/
theorem b1_apply (c : Dev nD) (j : Fin 32) :
    (V (F := Ideal) m c main_v46 : FVec Ideal S1x32 .f32) (ix2 (0 : Fin 1) j)
      = (m ((c : Thread nD τ).loc main_arg5) : FVec Ideal S32 .f32) (ix1 j) := by
  rw [V_b1]; exact shapeCast_a_1a_apply _ _ 0 j

/-- The second dense layer's bias row at (0, j). -/
theorem b2_apply (c : Dev nD) (j : Fin 32) :
    (V (F := Ideal) m c main_v47 : FVec Ideal S1x32 .f32) (ix2 (0 : Fin 1) j)
      = (m ((c : Thread nD τ).loc main_arg7) : FVec Ideal S32 .f32) (ix1 j) := by
  rw [V_b2]; exact shapeCast_a_1a_apply _ _ 0 j

/-- The last bias as a one-entry matrix. -/
theorem b3_apply (c : Dev nD) :
    (V (F := Ideal) m c main_v48 : FVec Ideal S1x1 .f32) (ix2 (0 : Fin 1) (0 : Fin 1))
      = (m ((c : Thread nD τ).loc main_arg9) : FVec Ideal S1 .f32) (ix1 (0 : Fin 1)) := by
  rw [V_b3]; exact shapeCast_a_1a_apply _ _ 0 0

/-- The last weight column as a row: at (0, k) it is the column at (k, 0). -/
theorem w3_apply (c : Dev nD) (k : Fin 32) :
    (V (F := Ideal) m c main_v49 : FVec Ideal S1x32 .f32) (ix2 (0 : Fin 1) k)
      = (m ((c : Thread nD τ).loc main_arg8) : FVec Ideal S32x1 .f32) (ix2 k (0 : Fin 1)) := by
  rw [V_w3]
  refine shapeCast_apply _ _ (ix2 (0 : Fin 1) k) (ix2 k (0 : Fin 1)) ?_
  rw [Shape.rowMajor_val_two, Shape.rowMajor_val_two]
  show k.val * 1 + 0 = 0 * 32 + k.val
  omega

end Cert.KernelOps

end
-- ==== Proof.LibSegment.lean ====
/-
  Segment sums and row lookups on the host, read at one element.

  An accumulating scatter along the leading axis (what a segment sum lowers to) adds update position e to
  the operand's position col(e), where col(e) is the index word at e read as a SIGNED integer and NOT clamped:
  an index outside 0 … L - 1 names no position and its update is dropped. So, at the extended reals, position n of
  the result is the operand's entry plus the sum of the updates over the FIBRE { e | col(e) = n } — for a vector of
  updates (vecDims) and, column by column, for a matrix of update rows (rowDims).

  A gather along the leading axis (what x[idx] lowers to) reads, at position e, the operand at the index word at e
  read signed and CLAMPED into 0 … L - 1 — for a vector (vecTake) and, column by column, for the rows of a matrix
  (rowTake).

  The two meet in keep_of_toInt_eq: a word that reads as a position n < L is not negative, so the
  wrap of negative indices leaves it alone, and the clamp leaves it at n. Hence on the fibre of n the gather at the
  wrapped word reads position n.
-/
import Idealize.ShloMosaic.PureOps.ShapeOps
import Idealize.ShloMosaic.PureOps.Ideal
import Idealize.ShloMosaic.Lib.ValueIdx
import Mathlib.Algebra.BigOperators.Fin

noncomputable section

open scoped BigOperators

namespace Idealize.ShloMosaic.LibSegment

open Idealize.ShloMosaic Idealize.ShloMosaic.ValueIdx

/-! ## Which element an update position names -/

/-- An update position names the element i exactly when, on every axis, its start plus its window coordinate is
    i's coordinate (in particular it is then inside the operand). -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e0 := congrArg (fun f : s.Idx => (f a).val) (Option.some.inj e)
      have := h a
      simp only at e0
      omega
    · intro e
      refine congrArg some (funext fun a => Fin.ext ?_)
      have := e a
      show (d.start j idx a + (d.window j a : Int)).toNat = (i a).val
      omega
  · rename_i h
    constructor
    · intro e; exact absurd e (by simp)
    · intro e
      exfalso
      apply h
      intro a
      have := e a
      have := (i a).isLt
      omega

variable {L K M w : Nat}

/-! ## A vector of updates added into a vector -/

/-- The dimension numbers of a segment sum of M scalars into a vector of length L. -/
abbrev vecDims (L M : Nat) (wf : ScatterDims.WF ⟨1, ![L]⟩ ⟨2, ![M, 1]⟩ ⟨1, ![M]⟩ [] [0] [0] 1) :
    ScatterDims ⟨1, ![L]⟩ ⟨2, ![M, 1]⟩ ⟨1, ![M]⟩ :=
  { updateWindowDims := [], insertedWindowDims := [0], scatterDimsToOperandDims := [0], indexVectorDim := 1, wf := wf }

section Vec
variable (wf : ScatterDims.WF ⟨1, ![L]⟩ ⟨2, ![M, 1]⟩ ⟨1, ![M]⟩ [] [0] [0] 1)

theorem vec_siIdx (e : Fin M) (c : Fin 1) : (vecDims L M wf).siIdx (ix1 e) c = ix2 e (0 : Fin 1) := by
  funext b
  match b with
  | ⟨0, _⟩ => rfl
  | ⟨1, _⟩ => exact Fin.ext (by have := c.isLt; show c.val = 0; omega)

theorem vec_start (e : Fin M) (idx : IVec ⟨2, ![M, 1]⟩ w) :
    (vecDims L M wf).start (ix1 e) idx 0 = (idx (ix2 e (0 : Fin 1))).toInt := by
  unfold ScatterDims.start
  rw [dif_pos (List.mem_singleton.2 rfl)]
  exact congrArg (fun k => (idx k).toInt) (vec_siIdx wf e _)

theorem vec_window (e : Fin M) : (vecDims L M wf).window (ix1 e) 0 = 0 := by
  unfold ScatterDims.window
  rw [dif_neg (by simp [ScatterDims.sKept, Shape.kept, List.finRange_succ])]

/-- Update position e names position n exactly when the index word at e, read signed, is n. -/
theorem vec_names_iff (e : Fin M) (idx : IVec ⟨2, ![M, 1]⟩ w) (n : Fin L) :
    (vecDims L M wf).resultIdx? (ix1 e) idx = some (ix1 n) ↔ (idx (ix2 e (0 : Fin 1))).toInt = (n.val : Int) := by
  rw [resultIdx?_eq_some_iff]
  constructor
  · intro h
    have := h 0
    rw [vec_start, vec_window] at this
    simp only [Nat.cast_zero, add_zero] at this
    exact this
  · intro h a
    match a with
    | ⟨0, _⟩ =>
      show (vecDims L M wf).start (ix1 e) idx 0 + (((vecDims L M wf).window (ix1 e) 0 : Nat) : Int) = (n.val : Int)
      rw [vec_start, vec_window, h]; simp

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- THE SEGMENT SUM OF SCALARS AT POSITION n: the operand's entry plus the updates over the fibre of n. -/
theorem hostScatterAdd_vec_apply (x : (⟨1, ![L]⟩ : Shape).Idx → EReal) (idx : IVec ⟨2, ![M, 1]⟩ w)
    (upd : (⟨1, ![M]⟩ : Shape).Idx → EReal) (n : Fin L) :
    Ideal.hostScatterAdd (vecDims L M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  refine Finset.sum_equiv idxEquiv1 (fun j => ?_) (fun j _ => ?_)
  · simp only [Finset.mem_filter, Finset.mem_univ, true_and]
    conv_lhs => rw [eq_ix1 j]
    exact vec_names_iff wf (j 0) idx n
  · conv_lhs => rw [eq_ix1 j]
    rfl

end Vec

/-! ## A matrix of update rows added into the rows of a matrix -/

/-- The dimension numbers of a segment sum of M rows of length K into an L × K matrix. -/
abbrev rowDims (L K M : Nat) (wf : ScatterDims.WF ⟨2, ![L, K]⟩ ⟨2, ![M, 1]⟩ ⟨2, ![M, K]⟩ [1] [0] [0] 1) :
    ScatterDims ⟨2, ![L, K]⟩ ⟨2, ![M, 1]⟩ ⟨2, ![M, K]⟩ :=
  { updateWindowDims := [1], insertedWindowDims := [0], scatterDimsToOperandDims := [0], indexVectorDim := 1, wf := wf }

section Row
variable (wf : ScatterDims.WF ⟨2, ![L, K]⟩ ⟨2, ![M, 1]⟩ ⟨2, ![M, K]⟩ [1] [0] [0] 1)

theorem row_siIdx (e : Fin M) (c : Fin K) (k : Fin 1) : (rowDims L K M wf).siIdx (ix2 e c) k = ix2 e (0 : Fin 1) := by
  funext b
  match b with
  | ⟨0, _⟩ => rfl
  | ⟨1, _⟩ => exact Fin.ext (by have := k.isLt; show k.val = 0; omega)

theorem row_start0 (e : Fin M) (c : Fin K) (idx : IVec ⟨2, ![M, 1]⟩ w) :
    (rowDims L K M wf).start (ix2 e c) idx 0 = (idx (ix2 e (0 : Fin 1))).toInt := by
  unfold ScatterDims.start
  rw [dif_pos (List.mem_singleton.2 rfl)]
  exact congrArg (fun k => (idx k).toInt) (row_siIdx wf e c _)

theorem row_start1 (e : Fin M) (c : Fin K) (idx : IVec ⟨2, ![M, 1]⟩ w) :
    (rowDims L K M wf).start (ix2 e c) idx 1 = 0 := by
  unfold ScatterDims.start
  rw [dif_neg (fun h => absurd (congrArg Fin.val (List.mem_singleton.1 h)) Nat.one_ne_zero)]

theorem row_window0 (e : Fin M) (c : Fin K) : (rowDims L K M wf).window (ix2 e c) 0 = 0 := by
  unfold ScatterDims.window
  rw [dif_neg (by simp [ScatterDims.sKept, Shape.kept, List.finRange_succ])]

theorem row_window1 (e : Fin M) (c : Fin K) : (rowDims L K M wf).window (ix2 e c) 1 = c.val := by
  unfold ScatterDims.window
  rw [dif_pos (by simp [ScatterDims.sKept, Shape.kept, List.finRange_succ])]
  rfl

/-- Update position (e, c) names element (n, c') exactly when the index word at e, read signed, is n and the
    columns agree. -/
theorem row_names_iff (e : Fin M) (c : Fin K) (idx : IVec ⟨2, ![M, 1]⟩ w) (n : Fin L) (c' : Fin K) :
    (rowDims L K M wf).resultIdx? (ix2 e c) idx = some (ix2 n c')
      ↔ (idx (ix2 e (0 : Fin 1))).toInt = (n.val : Int) ∧ c = c' := by
  rw [resultIdx?_eq_some_iff]
  constructor
  · intro h
    have h0 := h 0
    have h1 := h 1
    rw [row_start0, row_window0] at h0
    rw [row_start1, row_window1] at h1
    simp only [Nat.cast_zero, add_zero] at h0
    simp only [zero_add] at h1
    have h1' : ((c.val : Nat) : Int) = ((c'.val : Nat) : Int) := h1
    exact ⟨h0, Fin.ext (by exact_mod_cast h1')⟩
  · rintro ⟨h, rfl⟩ a
    match a with
    | ⟨0, _⟩ =>
      show (rowDims L K M wf).start (ix2 e c) idx 0 + (((rowDims L K M wf).window (ix2 e c) 0 : Nat) : Int) = (n.val : Int)
      rw [row_start0, row_window0, h]; simp
    | ⟨1, _⟩ =>
      show (rowDims L K M wf).start (ix2 e c) idx 1 + (((rowDims L K M wf).window (ix2 e c) 1 : Nat) : Int) = (c.val : Int)
      rw [row_start1, row_window1]; simp

/-- THE SEGMENT SUM OF ROWS AT ELEMENT (n, c): the operand's entry plus column c of the update rows over the fibre of n. -/
theorem hostScatterAdd_row_apply (x : (⟨2, ![L, K]⟩ : Shape).Idx → EReal) (idx : IVec ⟨2, ![M, 1]⟩ w)
    (upd : (⟨2, ![M, K]⟩ : Shape).Idx → EReal) (n : Fin L) (c : Fin K) :
    Ideal.hostScatterAdd (rowDims L K M wf) x idx upd (ix2 n c)
      = x (ix2 n c) + ∑ e ∈ Finset.univ.filter (fun e : Fin M => (idx (ix2 e (0 : Fin 1))).toInt = (n.val : Int)),
          upd (ix2 e c) := by
  unfold Ideal.hostScatterAdd
  congr 1
  have hP : ∀ j : (⟨2, ![M, K]⟩ : Shape).Idx, (rowDims L K M wf).resultIdx? j idx = some (ix2 n c)
      ↔ (idx (ix2 (j 0) (0 : Fin 1))).toInt = (n.val : Int) ∧ j 1 = c := fun j => by
    conv_lhs => rw [eq_ix2 j]
    exact row_names_iff wf (j 0) (j 1) idx n c
  refine Finset.sum_nbij' (fun j => (j 0 : Fin M)) (fun e => ix2 e c) ?_ ?_ ?_ ?_ ?_
  · intro j hj
    exact Finset.mem_filter.2 ⟨Finset.mem_univ _, ((hP j).1 (Finset.mem_filter.1 hj).2).1⟩
  · intro e he
    exact Finset.mem_filter.2 ⟨Finset.mem_univ _, (hP (ix2 e c)).2 ⟨(Finset.mem_filter.1 he).2, rfl⟩⟩
  · intro j hj
    have h1 : j 1 = c := ((hP j).1 (Finset.mem_filter.1 hj).2).2
    show ix2 (j 0) c = j
    rw [← h1]; exact (eq_ix2 j).symm
  · intro e _; rfl
  · intro j hj
    have h1 : j 1 = c := ((hP j).1 (Finset.mem_filter.1 hj).2).2
    show upd j = upd (ix2 (j 0) c)
    rw [← h1]; exact congrArg upd (eq_ix2 j)

end Row

/-! ## Lookups along the leading axis -/

/-- The dimension numbers of x[idx] for a vector x of length L and M index words. -/
abbrev vecTake (L M : Nat) (wf : GatherDims.WF ⟨1, ![L]⟩ ⟨2, ![M, 1]⟩ ⟨1, ![M]⟩ [] [0] [] [0] [] 1 ![1]) :
    GatherDims ⟨1, ![L]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE LOOKUP IN A VECTOR AT e: the operand at the index word at e, read signed and clamped into 0 … L - 1. -/
theorem gather_vec_apply {α : Type} (hL : 0 < L)
    (wf : GatherDims.WF ⟨1, ![L]⟩ ⟨2, ![M, 1]⟩ ⟨1, ![M]⟩ [] [0] [] [0] [] 1 ![1])
    (x : (⟨1, ![L]⟩ : Shape).Idx → α) (idx : IVec ⟨2, ![M, 1]⟩ w) (e : Fin M) :
    Host.gather (vecTake L M wf) x idx (ix1 e)
      = x (ix1 ⟨min (idx (ix2 e (0 : Fin 1))).toInt.toNat (L - 1), by omega⟩) := by
  unfold Host.gather
  congr 1
  funext a
  obtain rfl : a = 0 := Subsingleton.elim _ _
  refine Fin.ext ?_
  show (vecTake L M wf).start (ix1 e) idx 0 + (vecTake L M wf).batchCoord (ix1 e) 0 + (vecTake L M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake L M wf).startIndexMap from List.mem_singleton.mpr rfl)]
  have hsi : (vecTake L M wf).siIdx (ix1 e) ⟨List.idxOf (0 : Fin 1) (vecTake L M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of x[idx] for the rows of an L × K matrix x and M index words. -/
abbrev rowTake (L K M : Nat) (wf : GatherDims.WF ⟨2, ![L, K]⟩ ⟨2, ![M, 1]⟩ ⟨2, ![M, K]⟩ [1] [0] [] [0] [] 1 ![1, K]) :
    GatherDims ⟨2, ![L, K]⟩ ⟨2, ![M, 1]⟩ ⟨2, ![M, K]⟩ where
  offsetDims := [1]
  collapsedSliceDims := [0]
  operandBatchingDims := []
  startIndicesBatchingDims := []
  startIndexMap := [0]
  indexVectorDim := 1
  sliceSizes := ![1, K]
  wf := wf

/-- THE LOOKUP OF A ROW AT (e, c): column c of the operand's row at the index word at e, read signed and clamped
    into 0 … L - 1. -/
theorem gather_row_apply {α : Type} (hL : 0 < L)
    (wf : GatherDims.WF ⟨2, ![L, K]⟩ ⟨2, ![M, 1]⟩ ⟨2, ![M, K]⟩ [1] [0] [] [0] [] 1 ![1, K])
    (x : (⟨2, ![L, K]⟩ : Shape).Idx → α) (idx : IVec ⟨2, ![M, 1]⟩ w) (e : Fin M) (c : Fin K) :
    Host.gather (rowTake L K M wf) x idx (ix2 e c)
      = x (ix2 ⟨min (idx (ix2 e (0 : Fin 1))).toInt.toNat (L - 1), by omega⟩ c) := by
  unfold Host.gather
  congr 1
  funext a
  refine Fin.ext ?_
  match a with
  | ⟨0, _⟩ =>
    show (rowTake L K M wf).start (ix2 e c) idx 0 + (rowTake L K M wf).batchCoord (ix2 e c) 0
      + (rowTake L K M wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake L K M wf).startIndexMap from List.mem_singleton.mpr rfl)]
    have hsi : (rowTake L K M wf).siIdx (ix2 e c) ⟨List.idxOf (0 : Fin 2) (rowTake L K M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowTake L K M wf).start (ix2 e c) idx 1 + (rowTake L K M wf).batchCoord (ix2 e c) 1
      + (rowTake L K M wf).offCoord (ix2 e c) 1 = c.val
    have hk : (1 : Fin 2) ∈ (rowTake L K M wf).sKept :=
      (GatherDims.mem_sKept _ _).2 ⟨fun h => absurd (congrArg Fin.val (List.mem_singleton.1 h)) Nat.one_ne_zero, List.not_mem_nil⟩
    rw [GatherDims.batchCoord_eq_zero _ _ _ List.not_mem_nil]
    unfold GatherDims.start GatherDims.offCoord
    rw [dif_neg (fun h => absurd (congrArg Fin.val (List.mem_singleton.1 h)) Nat.one_ne_zero), dif_pos hk]
    simp only [Nat.zero_add]
    rfl

/-! ## The index words -/

/-- A word that reads, signed, as a position n < L is not negative: the wrap of negative indices (add L when the
    word is below zero) leaves it alone, and the clamp into 0 … L - 1 leaves it at n. -/
theorem keep_of_toInt_eq (x Lw : BitVec 32) (n : Fin L) (h : x.toInt = (n.val : Int)) :
    min (Scalar.select (IntOp.cmpi .slt x 0#32) (IntOp.addi x Lw) x).toInt.toNat (L - 1) = n.val := by
  have hs : IntOp.cmpi .slt x 0#32 = 0#1 := by
    unfold IntOp.cmpi
    have : x.slt 0#32 = false := by
      rw [BitVec.slt_eq_decide]
      simp only [BitVec.toInt_zero, decide_eq_false_iff_not, not_lt]
      omega
    simp [this]
  rw [hs, select_zero, h]
  have := n.isLt
  omega

end Idealize.ShloMosaic.LibSegment

end
-- ==== Proof.LibERealCoe.lean ====
/-
  The reals inside the extended reals.

  The inclusion of the real numbers into the extended reals is an order embedding and an additive map on the reals, so
  it commutes with finite sums, with `min` and with `max`: an expression built from real entries by these operations may
  be computed in the reals and included afterwards.
-/
import Mathlib.Data.EReal.Operations
import Mathlib.Algebra.BigOperators.Fin

namespace Cert.LibERealCoe

/-- The inclusion of the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with `min`. -/
theorem coe_min (a b : ℝ) : ((min a b : ℝ) : EReal) = min (a : EReal) (b : EReal) :=
  (EReal.coe_strictMono.monotone).map_min

/-- The inclusion of the reals commutes with `max`. -/
theorem coe_max (a b : ℝ) : ((max a b : ℝ) : EReal) = max (a : EReal) (b : EReal) :=
  (EReal.coe_strictMono.monotone).map_max

end Cert.LibERealCoe
-- ==== Proof.Linear.lean ====
/-
  The one algebraic law of this certificate: weighting after aggregating is aggregating after weighting.

  A graph convolution gathers a row per edge, scales it by the edge's coefficient, and adds the scaled rows into
  the row of the edge's target node; a dense layer then multiplies the aggregated row by a weight matrix. Because
  every step is linear, the weight matrix may be applied to the rows first and the aggregation afterwards:

      ∑_d ( ∑_{e ∈ S} a e d · ν e ) · w d  =  ∑_{e ∈ S} ( ∑_d a e d · w d ) · ν e .

  Over the reals this is distributivity and an exchange of two finite sums. Over the extended reals it needs every
  entry, coefficient and weight to be a real number (at an infinity distributivity fails), and then it is the real
  law read through the inclusion of the reals.
-/
import Mathlib.Data.EReal.Operations
import Mathlib.Algebra.BigOperators.Fin
import proofs.«101228_j33243046871254_2_alg».proof.Proof.LibERealCoe

open scoped BigOperators

namespace Cert.Linear

/-- Over the reals: distribute the weight over the inner sum, exchange the two sums, regroup each product. -/
theorem weight_agg_real {E : Type*} {D : ℕ} (S : Finset E) (a : E → Fin D → ℝ) (ν : E → ℝ) (w : Fin D → ℝ) :
    ∑ d, (∑ e ∈ S, a e d * ν e) * w d = ∑ e ∈ S, (∑ d, a e d * w d) * ν e := by
  simp only [Finset.sum_mul]
  rw [Finset.sum_comm]
  exact Finset.sum_congr rfl fun e _ => Finset.sum_congr rfl fun d _ => by ring

/-- A finite sum of extended reals that are all real numbers is a real number. -/
theorem sum_is_real {E : Type*} (S : Finset E) (f : E → EReal) (hf : ∀ e, ∃ r : ℝ, f e = (r : EReal)) :
    ∃ r : ℝ, ∑ e ∈ S, f e = (r : EReal) := by
  choose fr hfr using hf
  exact ⟨∑ e ∈ S, fr e, by simp only [hfr, ← Cert.LibERealCoe.coe_sum]⟩

/-- Over the extended reals, for real entries, coefficients and weights; both aggregations start from zero. -/
theorem weight_agg {E : Type*} {D : ℕ} (S : Finset E) (a : E → Fin D → EReal) (ν : E → EReal) (w : Fin D → EReal)
    (ha : ∀ e d, ∃ r : ℝ, a e d = (r : EReal)) (hν : ∀ e, ∃ r : ℝ, ν e = (r : EReal))
    (hw : ∀ d, ∃ r : ℝ, w d = (r : EReal)) :
    ∑ d, (0 + ∑ e ∈ S, a e d * ν e) * w d = 0 + ∑ e ∈ S, (∑ d, a e d * w d) * ν e := by
  choose ar har using ha
  choose νr hνr using hν
  choose wr hwr using hw
  simp only [har, hνr, hwr, zero_add, ← EReal.coe_mul, ← Cert.LibERealCoe.coe_sum]
  exact congrArg _ (weight_agg_real S ar νr wr)

end Cert.Linear
-- ==== Proof.Edges.lean ====
/-
  The graph's edges as both programs see them, and the aggregation read at one entry.

  Both programs build the same edge list from the index argument: 600000 given edges followed by one self-loop per
  node, 650000 edges in all. Edge e has a target word (the scatter index) and a source word (the gather index,
  negative words wrapped by the node count). Three things are read off them here:

    * the fibre of node n: the edges whose target word, read signed, is n (a word outside 0 … 49999 names no node
      and its edge is dropped);
    * the source row of edge e: its source word read signed and clamped into 0 … 49999;
    * the coefficient of edge e: dinv(source) · dinv(target), where dinv is the inverse square root of the node's
      in-degree where that is positive and 0 elsewhere.

  The in-degree of a node is zero plus a sum of ones over its fibre, a real number; so every dinv and every
  coefficient is a real number. That is the one fact about the coefficients the certificate needs.

  The aggregation of a matrix A of node rows — gather row src(e), scale by coef(e), add into row n over the fibre
  of n, starting from zero — is read at entry (n, c) as  0 + ∑_{e ∈ fibre n} A (src e, c) · coef e.
-/
import proofs.«101228_j33243046871254_2_alg».proof.Proof.RefRead
import proofs.«101228_j33243046871254_2_alg».proof.Proof.LibSegment
import proofs.«101228_j33243046871254_2_alg».proof.Proof.Linear
import Idealize.ShloMosaic.PureOps.IdealRules
import Idealize.ShloMosaic.PureOps.Ideal.Laws
import Idealize.ShloMosaic.Lib.ValueIdx

noncomputable section

open scoped BigOperators

namespace Cert.Edges

open Idealize.ShloMosaic Idealize.ShloMosaic.ValueIdx Cert.ReferenceIdeal Cert.ReferenceIdeal.Gen Cert.ReferenceIdeal.ReadP

/-! ## The host's accumulating scatter on the extended reals, and the four dimension records -/

/-- On the extended reals the host's accumulating scatter is the exact sum of the colliding updates. -/
theorem scatterAdd_ideal {s si u : Shape} {w : ℕ} (d : ScatterDims s si u) (x : FVec Ideal s .f32) (idx : IVec si w)
    (upd : FVec Ideal u .f32) : Host.scatterAdd d x idx upd = Ideal.hostScatterAdd d x idx upd := rfl

theorem degDims_eq : scatter_S50000_S650000x1_S650000_n_0_0_1
    = LibSegment.vecDims 50000 650000 scatter_S50000_S650000x1_S650000_n_0_0_1_wf := rfl
theorem aggDims_eq : scatter_S50000x128_S650000x1_S650000x128_1_0_0_1
    = LibSegment.rowDims 50000 128 650000 scatter_S50000x128_S650000x1_S650000x128_1_0_0_1_wf := rfl
theorem vecTake_eq : gather_S50000_S650000x1_S650000_n_0_n_n_0_1_1
    = LibSegment.vecTake 50000 650000 gather_S50000_S650000x1_S650000_n_0_n_n_0_1_1_wf := rfl
theorem rowTake_eq : gather_S50000x128_S650000x1_S650000x128_1_0_n_n_0_1_1128
    = LibSegment.rowTake 50000 128 650000 gather_S50000x128_S650000x1_S650000x128_1_0_n_n_0_1_1128_wf := rfl

/-- A segment sum of scalars at node n: the operand's entry plus the updates over the fibre of n. -/
theorem segsum_vec (op : FVec Ideal S50000 .f32) (idx : IVec S650000x1 32) (upd : FVec Ideal S650000 .f32) (n : Fin 50000) :
    Host.scatterAdd scatter_S50000_S650000x1_S650000_n_0_0_1 op idx upd (ix1 n)
      = op (ix1 n) + ∑ e ∈ Finset.univ.filter (fun e : Fin 650000 => (idx (ix2 e (0 : Fin 1))).toInt = (n.val : Int)), upd (ix1 e) := by
  rw [scatterAdd_ideal, degDims_eq]
  exact LibSegment.hostScatterAdd_vec_apply _ op idx upd n

/-- A segment sum of rows at entry (n, c): the operand's entry plus column c of the update rows over the fibre of n. -/
theorem segsum_row (op : FVec Ideal S50000x128 .f32) (idx : IVec S650000x1 32) (upd : FVec Ideal S650000x128 .f32)
    (n : Fin 50000) (c : Fin 128) :
    Host.scatterAdd scatter_S50000x128_S650000x1_S650000x128_1_0_0_1 op idx upd (ix2 n c)
      = op (ix2 n c) + ∑ e ∈ Finset.univ.filter (fun e : Fin 650000 => (idx (ix2 e (0 : Fin 1))).toInt = (n.val : Int)), upd (ix2 e c) := by
  rw [scatterAdd_ideal, aggDims_eq]
  exact LibSegment.hostScatterAdd_row_apply _ op idx upd n c

/-- A lookup in a vector of node values at edge e: the value at the edge's word, read signed and clamped. -/
theorem take_vec {α : Type} (x : S50000.Idx → α) (idx : IVec S650000x1 32) (e : Fin 650000) :
    Host.gather gather_S50000_S650000x1_S650000_n_0_n_n_0_1_1 x idx (ix1 e)
      = x (ix1 ⟨min (idx (ix2 e (0 : Fin 1))).toInt.toNat (50000 - 1), by omega⟩) := by
  rw [vecTake_eq]
  exact LibSegment.gather_vec_apply (by omega) _ x idx e

/-- A lookup of a row of node features at (e, c): column c of the row at the edge's word, read signed and clamped. -/
theorem take_row {α : Type} (x : S50000x128.Idx → α) (idx : IVec S650000x1 32) (e : Fin 650000) (c : Fin 128) :
    Host.gather gather_S50000x128_S650000x1_S650000x128_1_0_n_n_0_1_1128 x idx (ix2 e c)
      = x (ix2 ⟨min (idx (ix2 e (0 : Fin 1))).toInt.toNat (50000 - 1), by omega⟩ c) := by
  rw [rowTake_eq]
  exact LibSegment.gather_row_apply (by omega) _ x idx e c

/-! ## Fibres, source rows, coefficients -/

variable (x1 : (⟨S2x600000, .i32⟩ : BufTy).Contents (Elt Ideal))

/-- The edges whose target is node n. -/
def fibre (n : Fin 50000) : Finset (Fin 650000) :=
  Finset.univ.filter (fun e : Fin 650000 => (val_main_v42 (F := Ideal) x1 (ix2 e (0 : Fin 1))).toInt = (n.val : Int))

/-- The node whose row edge e gathers. -/
def src (e : Fin 650000) : Fin 50000 :=
  ⟨min (val_main_v36 (F := Ideal) x1 (ix2 e (0 : Fin 1))).toInt.toNat (50000 - 1), by omega⟩

/-- The coefficient of edge e. -/
def coef (e : Fin 650000) : EReal := val_main_v30 (F := Ideal) x1 (ix1 e)

/-- The in-degree of a node is a real number: zero plus a sum of ones. -/
theorem deg_real (n : Fin 50000) : ∃ r : ℝ, val_main_v11 (F := Ideal) x1 (ix1 n) = (r : EReal) := by
  unfold val_main_v11
  rw [segsum_vec]
  have h9 : val_main_v9 (F := Ideal) (ix1 n) = 0 := by
    rw [val_main_v9_apply, val_main_cst_0_apply]; exact Ideal.ofBits_zero_f32
  have h8 : ∀ e : Fin 650000, ∃ r : ℝ, val_main_v8 (F := Ideal) (ix1 e) = (r : EReal) := fun e =>
    ⟨1, by rw [val_main_v8_apply, val_main_cst_apply]; exact IdealRules.sign_bit.ideal_onePat .f32⟩
  obtain ⟨r, hr⟩ := Cert.Linear.sum_is_real
    (Finset.univ.filter (fun e : Fin 650000 => (val_main_v10 (F := Ideal) x1 (ix2 e (0 : Fin 1))).toInt = (n.val : Int)))
    (fun e => val_main_v8 (F := Ideal) (ix1 e)) h8
  exact ⟨r, by rw [h9, hr, zero_add]⟩

/-- The inverse square root of the in-degree where it is positive, zero elsewhere, is a real number. -/
theorem dinv_real (n : Fin 50000) : ∃ r : ℝ, val_main_v15 (F := Ideal) x1 (ix1 n) = (r : EReal) := by
  obtain ⟨d, hd⟩ := deg_real x1 n
  rw [val_main_v15_apply, val_main_v13_apply, val_main_v14_apply, val_main_call0_v1_apply, val_main_call0_v0_apply,
    val_main_cst_2_apply, val_main_v12_apply, val_main_cst_1_apply, hd]
  show ∃ r : ℝ, Scalar.select (Ideal.cmp .ogt (d : EReal) (Ideal.ofBits .f32 0x00000000#32)) (Ideal.rsqrt (d : EReal))
    (Ideal.ofBits .f32 0x00000000#32) = (r : EReal)
  rw [Ideal.ofBits_zero_f32]
  by_cases hpos : 0 < d
  · have hc : Ideal.cmp .ogt (d : EReal) 0 = 1#1 := by
      have : (0 : EReal) < (d : EReal) := by exact_mod_cast hpos
      simp [Ideal.cmp, this]
    rw [hc, select_one, Ideal.rsqrt_coe, if_neg (not_lt.mpr hpos.le), if_neg hpos.ne']
    exact ⟨_, rfl⟩
  · have hc : Ideal.cmp .ogt (d : EReal) 0 = 0#1 := by
      have : ¬ (0 : EReal) < (d : EReal) := by exact_mod_cast hpos
      simp [Ideal.cmp, this]
    rw [hc, select_zero]
    exact ⟨0, rfl⟩

/-- Every edge's coefficient is a real number: a product of two of the dinv's. -/
theorem coef_real (e : Fin 650000) : ∃ r : ℝ, coef x1 e = (r : EReal) := by
  unfold coef
  rw [val_main_v30_apply]
  unfold val_main_v22 val_main_v29
  rw [take_vec, take_vec]
  obtain ⟨a, ha⟩ := dinv_real x1 ⟨min (val_main_v21 (F := Ideal) x1 (ix2 e (0 : Fin 1))).toInt.toNat (50000 - 1), by omega⟩
  obtain ⟨b, hb⟩ := dinv_real x1 ⟨min (val_main_v28 (F := Ideal) x1 (ix2 e (0 : Fin 1))).toInt.toNat (50000 - 1), by omega⟩
  rw [ha, hb]
  exact ⟨a * b, (EReal.coe_mul a b).symm⟩

/-! ## The aggregation at an entry -/

/-- Gather row src(e) of A, scale it by coef(e), add into row n over the fibre of n, from zero: at entry (n, c). -/
theorem agg_apply (A : FVec Ideal S50000x128 .f32) (n : Fin 50000) (c : Fin 128) :
    Host.scatterAdd scatter_S50000x128_S650000x1_S650000x128_1_0_0_1 (val_main_v41 (F := Ideal)) (val_main_v42 (F := Ideal) x1)
        (mulf (Host.gather gather_S50000x128_S650000x1_S650000x128_1_0_n_n_0_1_1128 A (val_main_v36 (F := Ideal) x1))
          (val_main_v39 (F := Ideal) x1)) (ix2 n c)
      = 0 + ∑ e ∈ fibre x1 n, A (ix2 (src x1 e) c) * coef x1 e := by
  rw [segsum_row]
  have h41 : val_main_v41 (F := Ideal) (ix2 n c) = 0 := by
    rw [val_main_v41_apply, val_main_cst_8_apply]; exact Ideal.ofBits_zero_f32
  rw [h41]
  refine congrArg (0 + ·) (Finset.sum_congr rfl fun e _ => ?_)
  refine (mulf_apply _ _ _).trans ?_
  refine congrArg₂ (· * ·) (take_row A _ e c) ?_
  rw [val_main_v39_apply, val_main_v38_apply]
  have hi : idx_main_v38 (idx_main_v39 (ix2 e c)) = ix1 e := by
    funext a; match a with | ⟨0, _⟩ => rfl
  rw [hi]
  rfl

end Cert.Edges

end
-- ==== Proof.RefSide.lean ====
/-
  The reference, read at one node.

  The reference multiplies the node features by the convolution's weight matrix first, aggregates the products over
  the edges, adds the bias, rectifies, adds the node's own features and runs the two dense layers and the final
  projection on whole arrays. Read at node n this is the per-node function of the specification with the convolved
  row

      p j = 0 + ∑_{e ∈ fibre n} ( ∑_k x (src e, k) · W (k, j) ) · coef e ,

  every product of the host being the plain sum over the contracted coordinate and every bias a row repeated over
  the nodes.
-/
import proofs.«101228_j33243046871254_2_alg».proof.Proof.RefRead
import proofs.«101228_j33243046871254_2_alg».proof.Proof.Spec
import proofs.«101228_j33243046871254_2_alg».proof.Proof.Edges
import Idealize.ShloMosaic.Lib.ValueIdx

noncomputable section

open scoped BigOperators

namespace Cert.RefSide

open Idealize.ShloMosaic Idealize.ShloMosaic.ValueIdx Cert.ReferenceIdeal Cert.ReferenceIdeal.ReadP

variable (x0 : (⟨S50000x128, .f32⟩ : BufTy).Contents (Elt Ideal)) (x1 : (⟨S2x600000, .i32⟩ : BufTy).Contents (Elt Ideal)) (x2 : (⟨S128x128, .f32⟩ : BufTy).Contents (Elt Ideal))
  (x3 : (⟨S128, .f32⟩ : BufTy).Contents (Elt Ideal)) (x4 : (⟨S128x32, .f32⟩ : BufTy).Contents (Elt Ideal)) (x5 : (⟨S32, .f32⟩ : BufTy).Contents (Elt Ideal)) (x6 : (⟨S32x32, .f32⟩ : BufTy).Contents (Elt Ideal))
  (x7 : (⟨S32, .f32⟩ : BufTy).Contents (Elt Ideal)) (x8 : (⟨S32x1, .f32⟩ : BufTy).Contents (Elt Ideal)) (x9 : (⟨S1, .f32⟩ : BufTy).Contents (Elt Ideal))

/-- The aggregated products at (n, j): the products of the gathered rows with column j of the weight matrix, scaled
    by the edges' coefficients and summed over the fibre of n. -/
theorem conv_row (n : Fin 50000) (j : Fin 128) :
    val_main_v43 (F := Ideal) x0 x1 x2 (ix2 n j)
      = 0 + ∑ e ∈ Cert.Edges.fibre x1 n,
          (∑ k : Fin 128, x0 (ix2 (Cert.Edges.src x1 e) k) * x2 (ix2 k j)) * Cert.Edges.coef x1 e := by
  unfold val_main_v43 val_main_v40 val_main_v37
  refine (Cert.Edges.agg_apply x1 (val_main_v0 (F := Ideal) x0 x2) n j).trans ?_
  refine congrArg (0 + ·) (Finset.sum_congr rfl fun e _ => ?_)
  refine congrArg (· * Cert.Edges.coef x1 e) ?_
  rw [val_main_v0_apply]
  refine Finset.sum_congr rfl fun k _ => ?_
  have el : lidx_main_v0 (ix2 (Cert.Edges.src x1 e) j) k = ix2 (Cert.Edges.src x1 e) k := by
    funext a; match a with | ⟨0, _⟩ => rfl | ⟨1, _⟩ => rfl
  have er : ridx_main_v0 (ix2 (Cert.Edges.src x1 e) j) k = ix2 k j := by
    funext a; match a with | ⟨0, _⟩ => rfl | ⟨1, _⟩ => rfl
  rw [el, er]

/-- After the convolution's bias, rectifier and residual, at (n, j). -/
theorem h0_row (n : Fin 50000) (j : Fin 128) :
    val_main_v48 (F := Ideal) x0 x1 x2 x3 (ix2 n j)
      = Spec.h0 (fun j => val_main_v43 (F := Ideal) x0 x1 x2 (ix2 n j)) (fun j => x3 (ix1 j)) (fun j => x0 (ix2 n j)) j := by
  have e : idx_main_v44 (idx_main_v45 (ix2 n j)) = ix1 j := by
    funext a; match a with | ⟨0, _⟩ => rfl
  rw [val_main_v48_apply, val_main_v47_apply, val_main_v46_apply, val_main_v45_apply, val_main_v44_apply,
    val_main_call1_v0_apply, val_main_call1_cst_apply, e]
  rfl

/-- After the first dense layer, at (n, j). -/
theorem h1_row (n : Fin 50000) (j : Fin 32) :
    val_main_v53 (F := Ideal) x0 x1 x2 x3 x4 x5 (ix2 n j)
      = Spec.layer (fun k : Fin 128 => val_main_v48 (F := Ideal) x0 x1 x2 x3 (ix2 n k)) (fun k j => x4 (ix2 k j))
          (fun j => x5 (ix1 j)) j := by
  have e : idx_main_v50 (idx_main_v51 (ix2 n j)) = ix1 j := by
    funext a; match a with | ⟨0, _⟩ => rfl
  have el : ∀ k : Fin 128, lidx_main_v49 (ix2 n j) k = ix2 n k := fun k => by
    funext a; match a with | ⟨0, _⟩ => rfl | ⟨1, _⟩ => rfl
  have er : ∀ k : Fin 128, ridx_main_v49 (ix2 n j) k = ix2 k j := fun k => by
    funext a; match a with | ⟨0, _⟩ => rfl | ⟨1, _⟩ => rfl
  rw [val_main_v53_apply, val_main_v52_apply, val_main_v51_apply, val_main_v50_apply, val_main_call2_v0_apply,
    val_main_call2_cst_apply, val_main_v49_apply, e]
  simp only [el, er]
  rfl

/-- After the second dense layer, at (n, j). -/
theorem h2_row (n : Fin 50000) (j : Fin 32) :
    val_main_v58 (F := Ideal) x0 x1 x2 x3 x4 x5 x6 x7 (ix2 n j)
      = Spec.layer (fun k : Fin 32 => val_main_v53 (F := Ideal) x0 x1 x2 x3 x4 x5 (ix2 n k)) (fun k j => x6 (ix2 k j))
          (fun j => x7 (ix1 j)) j := by
  have e : idx_main_v55 (idx_main_v56 (ix2 n j)) = ix1 j := by
    funext a; match a with | ⟨0, _⟩ => rfl
  have el : ∀ k : Fin 32, lidx_main_v54 (ix2 n j) k = ix2 n k := fun k => by
    funext a; match a with | ⟨0, _⟩ => rfl | ⟨1, _⟩ => rfl
  have er : ∀ k : Fin 32, ridx_main_v54 (ix2 n j) k = ix2 k j := fun k => by
    funext a; match a with | ⟨0, _⟩ => rfl | ⟨1, _⟩ => rfl
  rw [val_main_v58_apply, val_main_v57_apply, val_main_v56_apply, val_main_v55_apply, val_main_call3_v0_apply,
    val_main_call3_cst_apply, val_main_v54_apply, e]
  simp only [el, er]
  rfl

/-- The reference's result at node n is the per-node output of the specification, the convolved row being the
    aggregated products. -/
theorem out_row (n : Fin 50000) :
    val_main_v62 (F := Ideal) x0 x1 x2 x3 x4 x5 x6 x7 x8 x9 (ix2 n (0 : Fin 1))
      = Spec.rowOut (fun j => val_main_v43 (F := Ideal) x0 x1 x2 (ix2 n j)) (fun j => x3 (ix1 j)) (fun j => x0 (ix2 n j))
          (fun k j => x4 (ix2 k j)) (fun j => x5 (ix1 j)) (fun k j => x6 (ix2 k j)) (fun j => x7 (ix1 j))
          (fun k => x8 (ix2 k (0 : Fin 1))) (x9 (ix1 (0 : Fin 1))) := by
  have e : idx_main_v60 (idx_main_v61 (ix2 n (0 : Fin 1))) = ix1 (0 : Fin 1) := by
    funext a; match a with | ⟨0, _⟩ => rfl
  have el : ∀ k : Fin 32, lidx_main_v59 (ix2 n (0 : Fin 1)) k = ix2 n k := fun k => by
    funext a; match a with | ⟨0, _⟩ => rfl | ⟨1, _⟩ => rfl
  have er : ∀ k : Fin 32, ridx_main_v59 (ix2 n (0 : Fin 1)) k = ix2 k (0 : Fin 1) := fun k => by
    funext a; match a with | ⟨0, _⟩ => rfl | ⟨1, _⟩ => rfl
  rw [val_main_v62_apply, val_main_v61_apply, val_main_v60_apply, val_main_v59_apply, e]
  simp only [el, er, h2_row, h1_row, h0_row]
  rfl

end Cert.RefSide

end
-- ==== Proof.Bridge.lean ====
/-
  The two programs give every node the same output.

  Kernel: the region finds the aggregated features  agg (n, d) = 0 + ∑_{e ∈ fibre n} x (src e, d) · coef e  and its body
  forms the convolved row  p j = ∑_d agg (n, d) · W (d, j).  Reference: the convolved row is
  p' j = 0 + ∑_{e ∈ fibre n} ( ∑_k x (src e, k) · W (k, j) ) · coef e.  The node features and the weight matrix are real
  by the precondition, the coefficients are real because the in-degrees are, and for real entries p = p' (weighting
  after aggregating is aggregating after weighting). Everything after the convolved row is the same per-node function
  on both sides, so the kernel's output array is the reference's result array, and the kernel's run can be stated
  with the reference's term.
-/
import proofs.«101228_j33243046871254_2_alg».proof.Proof.KValue
import proofs.«101228_j33243046871254_2_alg».proof.Proof.Blocks
import proofs.«101228_j33243046871254_2_alg».proof.Proof.KernelAgg
import proofs.«101228_j33243046871254_2_alg».proof.Proof.KernelOps
import proofs.«101228_j33243046871254_2_alg».proof.Proof.RefSide
import proofs.«101228_j33243046871254_2_alg».proof.Proof.Edges
import proofs.«101228_j33243046871254_2_alg».proof.Proof.Linear
import Idealize.ShloMosaic.Lib.ValueIdx

noncomputable section

open scoped BigOperators

namespace Cert.Bridge

open Idealize.ShloMosaic Idealize.ShloMosaic.TcCoe Idealize.SL.Sem Idealize.ShloMosaic.ValueIdx

/-! ## One node, over variables -/

section Node

variable (x0 : (⟨Cert.ReferenceIdeal.S50000x128, .f32⟩ : BufTy).Contents (Elt Ideal)) (x1 : (⟨Cert.ReferenceIdeal.S2x600000, .i32⟩ : BufTy).Contents (Elt Ideal)) (x2 : (⟨Cert.ReferenceIdeal.S128x128, .f32⟩ : BufTy).Contents (Elt Ideal))
  (x3 : (⟨Cert.ReferenceIdeal.S128, .f32⟩ : BufTy).Contents (Elt Ideal)) (x4 : (⟨Cert.ReferenceIdeal.S128x32, .f32⟩ : BufTy).Contents (Elt Ideal)) (x5 : (⟨Cert.ReferenceIdeal.S32, .f32⟩ : BufTy).Contents (Elt Ideal)) (x6 : (⟨Cert.ReferenceIdeal.S32x32, .f32⟩ : BufTy).Contents (Elt Ideal))
  (x7 : (⟨Cert.ReferenceIdeal.S32, .f32⟩ : BufTy).Contents (Elt Ideal)) (x8 : (⟨Cert.ReferenceIdeal.S32x1, .f32⟩ : BufTy).Contents (Elt Ideal)) (x9 : (⟨Cert.ReferenceIdeal.S1, .f32⟩ : BufTy).Contents (Elt Ideal))

/-- The kernel's convolved row is the reference's, for real features and weights: weighting after aggregating is
    aggregating after weighting. -/
theorem conv_eq (hx0 : ∀ i, ∃ r : ℝ, x0 i = (r : EReal)) (hx2 : ∀ i, ∃ r : ℝ, x2 i = (r : EReal))
    (agg : FVec Ideal Cert.ReferenceIdeal.S50000x128 .f32)
    (hagg : agg = Host.scatterAdd (F := Ideal) (φ := .f32) Cert.ReferenceIdeal.scatter_S50000x128_S650000x1_S650000x128_1_0_0_1
        (Cert.ReferenceIdeal.ReadP.val_main_v41 (F := Ideal)) (Cert.ReferenceIdeal.ReadP.val_main_v42 (F := Ideal) x1)
        (mulf (F := Ideal) (φ := .f32) (Host.gather (α := EReal) Cert.ReferenceIdeal.gather_S50000x128_S650000x1_S650000x128_1_0_n_n_0_1_1128 x0
            (Cert.ReferenceIdeal.ReadP.val_main_v36 (F := Ideal) x1)) (Cert.ReferenceIdeal.ReadP.val_main_v39 (F := Ideal) x1)))
    (n : Fin 50000) (j : Fin 128) :
    ∑ d : Fin 128, agg (ix2 n d) * x2 (ix2 d j) = Cert.ReferenceIdeal.ReadP.val_main_v43 (F := Ideal) x0 x1 x2 (ix2 n j) := by
  have hA : ∀ d : Fin 128, agg (ix2 n d)
      = 0 + ∑ e ∈ Cert.Edges.fibre x1 n, x0 (ix2 (Cert.Edges.src x1 e) d) * Cert.Edges.coef x1 e := fun d => by
    rw [hagg]; exact Cert.Edges.agg_apply x1 x0 n d
  rw [Cert.RefSide.conv_row]
  simp only [hA]
  exact Cert.Linear.weight_agg (Cert.Edges.fibre x1 n) (fun e d => x0 (ix2 (Cert.Edges.src x1 e) d)) (Cert.Edges.coef x1)
    (fun d => x2 (ix2 d j)) (fun e d => hx0 _) (Cert.Edges.coef_real x1) (fun d => hx2 _)

/-- The kernel's per-node output, from the arrays its region finds, is the reference's result at that node. -/
theorem node_eq (hx0 : ∀ i, ∃ r : ℝ, x0 i = (r : EReal)) (hx2 : ∀ i, ∃ r : ℝ, x2 i = (r : EReal))
    (agg : FVec Ideal Cert.ReferenceIdeal.S50000x128 .f32)
    (hagg : agg = Host.scatterAdd (F := Ideal) (φ := .f32) Cert.ReferenceIdeal.scatter_S50000x128_S650000x1_S650000x128_1_0_0_1
        (Cert.ReferenceIdeal.ReadP.val_main_v41 (F := Ideal)) (Cert.ReferenceIdeal.ReadP.val_main_v42 (F := Ideal) x1)
        (mulf (F := Ideal) (φ := .f32) (Host.gather (α := EReal) Cert.ReferenceIdeal.gather_S50000x128_S650000x1_S650000x128_1_0_n_n_0_1_1128 x0
            (Cert.ReferenceIdeal.ReadP.val_main_v36 (F := Ideal) x1)) (Cert.ReferenceIdeal.ReadP.val_main_v39 (F := Ideal) x1)))
    (b : Cert.KernelIdeal.S1x128.Idx → EReal) (hb : ∀ j : Fin 128, b (ix2 (0 : Fin 1) j) = x3 (ix1 j))
    (b1 : Cert.KernelIdeal.S1x32.Idx → EReal) (hb1 : ∀ j : Fin 32, b1 (ix2 (0 : Fin 1) j) = x5 (ix1 j))
    (b2 : Cert.KernelIdeal.S1x32.Idx → EReal) (hb2 : ∀ j : Fin 32, b2 (ix2 (0 : Fin 1) j) = x7 (ix1 j))
    (w3 : Cert.KernelIdeal.S1x32.Idx → EReal) (hw3 : ∀ k : Fin 32, w3 (ix2 (0 : Fin 1) k) = x8 (ix2 k (0 : Fin 1)))
    (b3 : Cert.KernelIdeal.S1x1.Idx → EReal) (hb3 : b3 (ix2 (0 : Fin 1) (0 : Fin 1)) = x9 (ix1 (0 : Fin 1)))
    (n : Fin 50000) :
    Cert.BlocksRow.nodeOut agg x0 x2 b x4 b1 x6 b2 w3 b3 n
      = Cert.ReferenceIdeal.ReadP.val_main_v62 (F := Ideal) x0 x1 x2 x3 x4 x5 x6 x7 x8 x9 (ix2 n (0 : Fin 1)) := by
  rw [Cert.RefSide.out_row]
  unfold Cert.BlocksRow.nodeOut
  simp only [hb, hb1, hb2, hw3, hb3]
  refine congrArg (fun p => Spec.rowOut p _ _ _ _ _ _ _ _) (funext fun j => ?_)
  exact conv_eq x0 x1 x2 hx0 hx2 agg hagg n j

/-- The same with the four arrays the region finds unchanged named apart from the arguments they equal. -/
theorem node_eq' (hx0 : ∀ i, ∃ r : ℝ, x0 i = (r : EReal)) (hx2 : ∀ i, ∃ r : ℝ, x2 i = (r : EReal))
    (agg : FVec Ideal Cert.ReferenceIdeal.S50000x128 .f32)
    (hagg : agg = Host.scatterAdd (F := Ideal) (φ := .f32) Cert.ReferenceIdeal.scatter_S50000x128_S650000x1_S650000x128_1_0_0_1
        (Cert.ReferenceIdeal.ReadP.val_main_v41 (F := Ideal)) (Cert.ReferenceIdeal.ReadP.val_main_v42 (F := Ideal) x1)
        (mulf (F := Ideal) (φ := .f32) (Host.gather (α := EReal) Cert.ReferenceIdeal.gather_S50000x128_S650000x1_S650000x128_1_0_n_n_0_1_1128 x0
            (Cert.ReferenceIdeal.ReadP.val_main_v36 (F := Ideal) x1)) (Cert.ReferenceIdeal.ReadP.val_main_v39 (F := Ideal) x1)))
    (y0 : (⟨Cert.ReferenceIdeal.S50000x128, .f32⟩ : BufTy).Contents (Elt Ideal)) (h0 : y0 = x0) (y2 : (⟨Cert.ReferenceIdeal.S128x128, .f32⟩ : BufTy).Contents (Elt Ideal)) (h2 : y2 = x2)
    (y4 : (⟨Cert.ReferenceIdeal.S128x32, .f32⟩ : BufTy).Contents (Elt Ideal)) (h4 : y4 = x4) (y6 : (⟨Cert.ReferenceIdeal.S32x32, .f32⟩ : BufTy).Contents (Elt Ideal)) (h6 : y6 = x6)
    (b : Cert.KernelIdeal.S1x128.Idx → EReal) (hb : ∀ j : Fin 128, b (ix2 (0 : Fin 1) j) = x3 (ix1 j))
    (b1 : Cert.KernelIdeal.S1x32.Idx → EReal) (hb1 : ∀ j : Fin 32, b1 (ix2 (0 : Fin 1) j) = x5 (ix1 j))
    (b2 : Cert.KernelIdeal.S1x32.Idx → EReal) (hb2 : ∀ j : Fin 32, b2 (ix2 (0 : Fin 1) j) = x7 (ix1 j))
    (w3 : Cert.KernelIdeal.S1x32.Idx → EReal) (hw3 : ∀ k : Fin 32, w3 (ix2 (0 : Fin 1) k) = x8 (ix2 k (0 : Fin 1)))
    (b3 : Cert.KernelIdeal.S1x1.Idx → EReal) (hb3 : b3 (ix2 (0 : Fin 1) (0 : Fin 1)) = x9 (ix1 (0 : Fin 1)))
    (n : Fin 50000) :
    Cert.BlocksRow.nodeOut agg y0 y2 b y4 b1 y6 b2 w3 b3 n
      = Cert.ReferenceIdeal.ReadP.val_main_v62 (F := Ideal) x0 x1 x2 x3 x4 x5 x6 x7 x8 x9 (ix2 n (0 : Fin 1)) := by
  subst h0 h2 h4 h6
  exact node_eq y0 x1 y2 x3 y4 x5 y6 x7 x8 x9 hx0 hx2 agg hagg b hb b1 hb1 b2 hb2 w3 hw3 b3 hb3 n

end Node

/-! ## The kernel's run with the reference's result term -/

open Cert.KernelIdeal Cert.KernelIdeal.Gen

variable (m : (ℓ : Loc nD τ sig) → Buf (Elt Ideal) ℓ) (ρ : Dev nD → PrngReg)

/-- The output array after the kernel's run is the reference's result of the same arguments, when the node features
    and the convolution's weight matrix are real. -/
theorem final_eq (c : Dev nD)
    (hx0 : ∀ i, ∃ r : ℝ, ((m ((c : Thread nD τ).loc main_arg0)) : Cert.ReferenceIdeal.S50000x128.Idx → EReal) i = (r : EReal))
    (hx2 : ∀ i, ∃ r : ℝ, ((m ((c : Thread nD τ).loc main_arg2)) : Cert.ReferenceIdeal.S128x128.Idx → EReal) i = (r : EReal)) :
    (dats m 0 c).arrAt 10 cfg0.N
      = Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  refine (Cert.Blocks.final m c).trans ?_
  funext i
  obtain ⟨n, q, rfl⟩ : ∃ (n : Fin 50000) (q : Fin 1), i = ix2 n q := ⟨i 0, i 1, eq_ix2 i⟩
  obtain rfl : q = 0 := Subsingleton.elim _ _
  exact node_eq' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    hx0 hx2 (V m c main_v44) (Cert.KernelAgg.V_agg m c)
    (V m c main_arg0) (V_main_arg0 m c) (V m c main_arg2) (V_main_arg2 m c)
    (V m c main_arg4) (V_main_arg4 m c) (V m c main_arg6) (V_main_arg6 m c)
    (V m c main_v45) (Cert.KernelOps.b_apply m c) (V m c main_v46) (Cert.KernelOps.b1_apply m c)
    (V m c main_v47) (Cert.KernelOps.b2_apply m c) (V m c main_v49) (Cert.KernelOps.w3_apply m c)
    (V m c main_v48) (Cert.KernelOps.b3_apply m c) n

end Cert.Bridge

end
-- ==== Proof.Finite.lean ====
import proofs.«101228_j33243046871254_2_alg».proof.Pre_finite_inputs
import proofs.«101228_j33243046871254_2_alg».proof.Proof.Gen.Pre_finite_inputs
import Idealize.ShloMosaic.PureOps.Ideal
import Idealize.ShloMosaic.Lib.ReduceAll
import Idealize.ShloMosaic.Lib.ValueIdx

/-!
  The precondition of the certificate is the conjunction, over every float argument, of
  "every element x satisfies |x| < +inf", computed as a rank-0 one-bit array. This module reads
  that precondition back for the first and the third argument: if the conjunction is 1 then every
  element of each of those two arrays is a real number (neither infinite nor the junk value).

  The steps: a conjunction of one-bit words is 1 only if both conjuncts are 1, so the outer
  conjunctions peel off one at a time; a reduction by "and" over all axes that is 1 had a 1 at every
  element; and an extended real x with max x (-x) < ⊤ is neither ⊥ nor ⊤, hence a real.
-/

noncomputable section
namespace Cert.Finite
open Idealize.ShloMosaic Cert.Pre_finite_inputs

/-- The f32 pattern with all exponent bits set and a zero significand denotes plus infinity. -/
theorem ofBits_inf : Ideal.ofBits .f32 0x7F800000#32 = (⊤ : EReal) := by
  simp [Ideal.ofBits, Ideal.ieee]

/-- A one-bit word made from a Boolean is 1 exactly when the Boolean is true. -/
theorem ofBool_one {b : Bool} : BitVec.ofBool b = 1#1 ↔ b = true := by cases b <;> decide

/-- An extended real whose absolute value, max x (-x), lies strictly below plus infinity is a real
    number: at x = ⊥ and at x = ⊤ the maximum is ⊤, which is not below itself. -/
theorem real_of_abs_lt_top (x : EReal) (h : Ideal.cmp .olt (max x (-x)) (⊤ : EReal) = 1#1) :
    ∃ r : ℝ, x = (r : EReal) := by
  simp only [Ideal.cmp, ofBool_one, decide_eq_true_eq] at h
  induction x using EReal.rec with
  | bot => simp at h
  | coe r => exact ⟨r, rfl⟩
  | top => simp at h

/-- The rank-0 shape has exactly one index. -/
instance : Subsingleton S_.Idx := ⟨fun a b => funext fun d => d.elim0⟩

/-- Where the mask |x| < +inf is 1 at an index, x is a real number there. The mask compares
    max (x i) (-(x i)) with the splat of the plus-infinity pattern, elementwise. -/
theorem real_of_mask {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [ofBits_inf] at h'
  exact real_of_abs_lt_top (x i) h'

/-- A conjunction over all elements of a one-bit array that came out 1 had a 1 at every element. -/
theorem all_of_reduce {s : Shape} {axes : List (Fin s.rank)} (hr : s.ReducesTo axes S_) (hu : 0 < S_.numel)
    (m : IVec s 1) (init : IVec S_ 1)
    (h : Host.reduce IntOp.andi m init hr hu ValueIdx.ix0 = 1#1) (i : s.Idx) : m i = 1#1 :=
  Host.reduce_andi_all m init hr hu ValueIdx.ix0 h i

/-- A rank-0 conjunction of two one-bit arrays that is 1 has both conjuncts 1. -/
theorem andi_ix0 (p q : IVec S_ 1) (h : andi p q ValueIdx.ix0 = 1#1) :
    p ValueIdx.ix0 = 1#1 ∧ q ValueIdx.ix0 = 1#1 := IntOp.andi_eq_one.1 h

/-- The last part of the precondition is (v ∧ m8) ∧ m9 for the running conjunction v it is handed and
    the masks m8, m9 of the last two arguments: if it is 1, so is v. -/
theorem part2_peel [Cert.Pre_finite_inputs.Facts] (a8 : FVec Ideal S32x1 .f32) (a9 : FVec Ideal S1 .f32) (v : IVec S_ 1)
    (h : Cert.Pre_finite_inputs.fn_part2 (F := Ideal) a8 a9 v ValueIdx.ix0 = 1#1) : v ValueIdx.ix0 = 1#1 := by
  unfold Cert.Pre_finite_inputs.fn_part2 at h
  exact (andi_ix0 _ _ (andi_ix0 _ _ h).1).1

/-- The middle part of the precondition is ((((v ∧ m4) ∧ m5) ∧ m6) ∧ m7) handed on to the last part, for
    the running conjunction v it is handed: if the whole is 1, so is v. -/
theorem part1_peel [Cert.Pre_finite_inputs.Facts] (a5 : FVec Ideal S32 .f32) (a6 : FVec Ideal S32x32 .f32) (a7 : FVec Ideal S32 .f32)
    (a8 : FVec Ideal S32x1 .f32) (a9 : FVec Ideal S1 .f32) (v : IVec S_ 1) (m4 : IVec S128x32 1)
    (h : Cert.Pre_finite_inputs.fn_part1 (F := Ideal) a5 a6 a7 a8 a9 v m4 ValueIdx.ix0 = 1#1) : v ValueIdx.ix0 = 1#1 := by
  unfold Cert.Pre_finite_inputs.fn_part1 at h
  have h33 := part2_peel a8 a9 _ h
  exact (andi_ix0 _ _ (andi_ix0 _ _ (andi_ix0 _ _ (andi_ix0 _ _ h33).1).1).1).1

/-- If the finiteness precondition holds (its rank-0 result is 1), every element of the first argument and
    every element of the third argument is a real number. The precondition is
    (((m0 ∧ m2) ∧ m3) ∧ …), each m the conjunction over all elements of |x| < +inf; peeling the outer
    conjunctions leaves m0 = 1 and m2 = 1, each of which says |x| < +inf at every element. -/
theorem real_of_pre [Cert.Pre_finite_inputs.Facts]
    (a0 : FVec Ideal S50000x128 .f32) (a1 : IVec S2x600000 32) (a2 : FVec Ideal S128x128 .f32) (a3 : FVec Ideal S128 .f32)
    (a4 : FVec Ideal S128x32 .f32) (a5 : FVec Ideal S32 .f32) (a6 : FVec Ideal S32x32 .f32) (a7 : FVec Ideal S32 .f32)
    (a8 : FVec Ideal S32x1 .f32) (a9 : FVec Ideal S1 .f32)
    (h : Cert.Pre_finite_inputs.fn (F := Ideal) a0 a1 a2 a3 a4 a5 a6 a7 a8 a9 = fun _ => 1#1) :
    (∀ i : S50000x128.Idx, ∃ r : ℝ, a0 i = (r : EReal)) ∧ (∀ i : S128x128.Idx, ∃ r : ℝ, a2 i = (r : EReal)) := by
  have h0 := congrFun h ValueIdx.ix0
  unfold Cert.Pre_finite_inputs.fn at h0
  have h13 := part1_peel a5 a6 a7 a8 a9 _ _ h0
  obtain ⟨h3, h7⟩ := andi_ix0 _ _ (andi_ix0 _ _ h13).1
  exact ⟨fun i => real_of_mask _ a0 i (all_of_reduce _ _ _ _ h3 i),
         fun i => real_of_mask _ a2 i (all_of_reduce _ _ _ _ h7 i)⟩

end Cert.Finite
end
-- ==== Proof.lean ====
/-
  A graph convolution followed by a small per-node network, computed two ways.

  Both programs take node features x (50000 × 128), an edge list (2 × 600000, to which one self-loop per node is
  added), the convolution's weight matrix W and bias b, and the weights of two dense layers and a final projection.
  With coef e = dinv(src e) · dinv(tgt e), dinv the inverse square root of the in-degree where it is positive and 0
  elsewhere, the REFERENCE computes, for node n,

      p' j = ∑_{e : tgt e = n} ( ∑_k x (src e, k) · W (k, j) ) · coef e ,

  while the KERNEL's program first aggregates the raw features on the host,
  agg (n, d) = ∑_{e : tgt e = n} x (src e, d) · coef e, and its Pallas kernel, on blocks of 5000 nodes, forms

      p j = ∑_d agg (n, d) · W (d, j) .

  After that both apply the same per-node function: relu (p + b) + x, two dense layers with relu, and a projection to
  one number (the kernel's last projection is a lane sum against the weight row, the reference's a matrix product
  with the weight column: the same sum).

  On the extended reals p = p' is distributivity plus an exchange of two finite sums, valid because every entry
  involved is a real number: x and W by the precondition (every float input is finite), the coefficients because an
  in-degree is a finite sum of ones. The changes of float format on the kernel's side are the identity there, and a
  matrix product into a zero tile is the plain sum of products, as is the host's.

  The three frames: the two kernel programs' frames are the generated ones; the reference's is its run with the
  result dropped. The idealization rewrote nothing, so there is nothing to preserve beyond the text itself.
-/
import proofs.«101228_j33243046871254_2_alg».proof.Defs
import proofs.«101228_j33243046871254_2_alg».proof.Proof.Gen.Kernel
import proofs.«101228_j33243046871254_2_alg».proof.Proof.Gen.Kernel.Skeleton
import proofs.«101228_j33243046871254_2_alg».proof.Proof.Gen.Kernel.Launch
import proofs.«101228_j33243046871254_2_alg».proof.Proof.Gen.Kernel.Points
import proofs.«101228_j33243046871254_2_alg».proof.Proof.Gen.Kernel.Frame
import proofs.«101228_j33243046871254_2_alg».proof.Proof.Gen.KernelIdeal
import proofs.«101228_j33243046871254_2_alg».proof.Proof.Gen.KernelIdeal.Skeleton
import proofs.«101228_j33243046871254_2_alg».proof.Proof.Gen.KernelIdeal.Launch
import proofs.«101228_j33243046871254_2_alg».proof.Proof.Gen.KernelIdeal.Points
import proofs.«101228_j33243046871254_2_alg».proof.Proof.Gen.KernelIdeal.Frame
import proofs.«101228_j33243046871254_2_alg».proof.Proof.Gen.ReferenceIdeal
import proofs.«101228_j33243046871254_2_alg».proof.Proof.Gen.Pre_finite_inputs
import proofs.«101228_j33243046871254_2_alg».proof.Proof.KValue
import proofs.«101228_j33243046871254_2_alg».proof.Proof.RefRead
import proofs.«101228_j33243046871254_2_alg».proof.Proof.Bridge
import proofs.«101228_j33243046871254_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- On the extended reals, from memories agreeing on the arguments, both programs end with the same result: the
    reference's result term of the kernel's arguments. The kernel's run reaches it because its output array is that
    term at every node when x and W are real; the reference's run reaches it by its own read-back. -/
theorem algebraic : Cert.algebraic_KernelIdeal_ReferenceIdeal := by
  intro m ρ m' ρ' hpre hagree
  have hreal := fun c => Cert.Finite.real_of_pre _ _ _ _ _ _ _ _ _ _ (hpre c)
  refine ⟨fun c => Cert.ReferenceIdeal.ReadP.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Bridge.final_eq m c (hreal c).1 (hreal c).2), (h c).2⟩)
      (Cert.KernelIdeal.ValueP.run_blocks m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8, a9⟩ := hagree c
    rw [Cert.ReferenceIdeal.ReadP.val_main_v62_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
